-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x32x32x256 : Shape := ⟨4, ![32, 32, 32, 256]⟩
abbrev S32x32x256x256 : Shape := ⟨4, ![32, 32, 256, 256]⟩
abbrev S_ : Shape := ⟨0, ![]⟩

class Facts : Prop where
  bcast_S_S32x32x32x256 : S_.BroadcastsInDim S32x32x32x256 (![] : Fin 0 → Fin S32x32x32x256.rank)
  reducesTo_S32x32x32x256_S_d0_1_2_3 : S32x32x32x256.ReducesTo [0, 1, 2, 3] S_
  h_S_ : 0 < S_.numel
  bcast_S_S32x32x256x256 : S_.BroadcastsInDim S32x32x256x256 (![] : Fin 0 → Fin S32x32x256x256.rank)
  reducesTo_S32x32x256x256_S_d0_1_2_3 : S32x32x256x256.ReducesTo [0, 1, 2, 3] S_

variable [Facts]

def fn {F : FTy → Type} [FloatOps F] (main_arg0 : FVec F S32x32x32x256 .f32) (main_arg1 : FVec F S32x32x256x256 .f32) : IVec S_ 1 :=
  let main_v0 : FVec F S32x32x32x256 .f32 := Host.absf main_arg0
  let main_cst : FVec F S_ .f32 := constant S_ .f32 0x7F800000#32
  let main_v1 : FVec F S32x32x32x256 .f32 := broadcastInDim S32x32x32x256 ![] bcast_S_S32x32x32x256 main_cst
  let main_v2 : IVec S32x32x32x256 1 := cmpf .olt main_v0 main_v1
  let main_c : IVec S_ 1 := constantI S_ 1 1#1
  let main_v3 : IVec S_ 1 := (fun x v => Host.reduce IntOp.andi x v reducesTo_S32x32x32x256_S_d0_1_2_3 h_S_) main_v2 main_c
  let main_v4 : FVec F S32x32x256x256 .f32 := Host.absf main_arg1
  let main_cst_0 : FVec F S_ .f32 := constant S_ .f32 0x7F800000#32
  let main_v5 : FVec F S32x32x256x256 .f32 := broadcastInDim S32x32x256x256 ![] bcast_S_S32x32x256x256 main_cst_0
  let main_v6 : IVec S32x32x256x256 1 := cmpf .olt main_v4 main_v5
  let main_c_1 : IVec S_ 1 := constantI S_ 1 1#1
  let main_v7 : IVec S_ 1 := (fun x v => Host.reduce IntOp.andi x v reducesTo_S32x32x256x256_S_d0_1_2_3 h_S_) main_v6 main_c_1
  let main_v8 : IVec S_ 1 := andi main_v3 main_v7
  let main_cst_2 : FVec F S_ .f32 := constant S_ .f32 0x00000000#32
  let main_v9 : FVec F S32x32x256x256 .f32 := broadcastInDim S32x32x256x256 ![] bcast_S_S32x32x256x256 main_cst_2
  let main_v10 : IVec S32x32x256x256 1 := cmpf .ogt main_arg1 main_v9
  let main_c_3 : IVec S_ 1 := constantI S_ 1 1#1
  let main_v11 : IVec S_ 1 := (fun x v => Host.reduce IntOp.andi x v reducesTo_S32x32x256x256_S_d0_1_2_3 h_S_) main_v10 main_c_3
  let main_v12 : IVec S_ 1 := andi main_v8 main_v11
  main_v12
-- ==== Kernel.lean ====
abbrev S32x32x32x256 : Shape := ⟨4, ![32, 32, 32, 256]⟩
abbrev S32x32x256x256 : Shape := ⟨4, ![32, 32, 256, 256]⟩
abbrev S1024x32x256 : Shape := ⟨3, ![1024, 32, 256]⟩
abbrev S1024x256x256 : Shape := ⟨3, ![1024, 256, 256]⟩
abbrev S32x32x256 : Shape := ⟨3, ![32, 32, 256]⟩
abbrev S32x256x256 : Shape := ⟨3, ![32, 256, 256]⟩
abbrev S32x256 : Shape := ⟨2, ![32, 256]⟩
abbrev S32x1x256 : Shape := ⟨3, ![32, 1, 256]⟩
abbrev S32x32 : Shape := ⟨2, ![32, 32]⟩
abbrev S32x32x1 : Shape := ⟨3, ![32, 32, 1]⟩

abbrev nBuf : Space → Nat
  | .hbm => 8
  | .vmem => 6
  | .smem => 0
  | _ => 0

abbrev bufTy : (tb : Table) → Fin (tcTables nBuf tb) → BufTy
  | .hbm, ⟨0, _⟩ => ⟨S32x32x32x256, .f32⟩
  | .hbm, ⟨1, _⟩ => ⟨S32x32x256x256, .f32⟩
  | .hbm, ⟨2, _⟩ => ⟨S32x32x32x256, .f32⟩
  | .hbm, ⟨3, _⟩ => ⟨S1024x32x256, .f32⟩
  | .hbm, ⟨4, _⟩ => ⟨S1024x256x256, .f32⟩
  | .hbm, ⟨5, _⟩ => ⟨S1024x32x256, .f32⟩
  | .hbm, ⟨6, _⟩ => ⟨S32x32x32x256, .f32⟩
  | .hbm, ⟨7, _⟩ => ⟨S32x32x32x256, .f32⟩
  | .local _ .vmem, ⟨0, _⟩ => ⟨S32x32x256, .f32⟩
  | .local _ .vmem, ⟨1, _⟩ => ⟨S32x32x256, .f32⟩
  | .local _ .vmem, ⟨2, _⟩ => ⟨S32x256x256, .f32⟩
  | .local _ .vmem, ⟨3, _⟩ => ⟨S32x256x256, .f32⟩
  | .local _ .vmem, ⟨4, _⟩ => ⟨S32x32x256, .f32⟩
  | .local _ .vmem, ⟨5, _⟩ => ⟨S32x32x256, .f32⟩
  | _, _ => ⟨S32x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32x32x32x256_S32x32x32x256_1_2_0_3 : S32x32x32x256.Transposes [1, 2, 0, 3] S32x32x32x256
  shapeCasts_S32x32x32x256_S1024x32x256 : S32x32x32x256.ShapeCasts S1024x32x256
  shapeCasts_S32x32x256x256_S1024x256x256 : S32x32x256x256.ShapeCasts S1024x256x256
  inb_S32x256x256_S32x256x256_0_0_0 : ∀ a, (![0, 0, 0] : Fin 3 → Nat) a + S32x256x256.size a ≤ S32x256x256.size a
  h_S32x256x256 : 0 < S32x256x256.numel
  shapeCasts_S32x256x256_S32x256x256 : S32x256x256.ShapeCasts S32x256x256
  reduces_S32x256x256_S32x256 : S32x256x256.Reduces [1] S32x256
  shapeCasts_S32x256_S32x1x256 : S32x256.ShapeCasts S32x1x256
  broadcasts_S32x1x256_S32x256x256 : S32x1x256.Broadcasts S32x256x256
  inb_S32x32x256_S32x32x256_0_0_0 : ∀ a, (![0, 0, 0] : Fin 3 → Nat) a + S32x32x256.size a ≤ S32x32x256.size a
  h_S32x32x256 : 0 < S32x32x256.numel
  shapeCasts_S32x32x256_S32x32x256 : S32x32x256.ShapeCasts S32x32x256
  reduces_S32x32x256_S32x32 : S32x32x256.Reduces [2] S32x32
  shapeCasts_S32x32_S32x32x1 : S32x32.ShapeCasts S32x32x1
  broadcasts_S32x32x1_S32x32x256 : S32x32x1.Broadcasts S32x32x256
  bitsLt_bf16_f32 : FTy.bits .bf16 < FTy.bits .f32
  broadcasts_S32x1x256_S32x32x256 : S32x1x256.Broadcasts S32x32x256
  shapeCasts_S1024x32x256_S32x32x32x256 : S1024x32x256.ShapeCasts S32x32x32x256
  transposes_S32x32x32x256_S32x32x32x256_2_0_1_3 : S32x32x32x256.Transposes [2, 0, 1, 3] S32x32x32x256
  dot_S32x32x256_S32x256x256_S32x32x256_2_1_1_2_0_0_wf : DotDims.WF S32x32x256 S32x256x256 S32x32x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x256.size a ≤ S1024x32x256.size a
  hwx0_0 : ∀ i : grid0.Coords, EltTy.bits .f32 = 32 ∨ (Rect.block (s := S1024x32x256) S32x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S1024x256x256.size a
  hwx0_1 : ∀ i : grid0.Coords, EltTy.bits .f32 = 32 ∨ (Rect.block (s := S1024x256x256) S32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32x256.size a ≤ S1024x32x256.size a
  hwx0_2 : ∀ i : grid0.Coords, EltTy.bits .f32 = 32 ∨ (Rect.block (s := S1024x32x256) S32x32x256.size (cc0_transform_2 i) (hinb0_2 i)).WholeWords (EltTy.packing .f32)

variable [Facts₀]

def dot_S32x32x256_S32x256x256_S32x32x256_2_1_1_2_0_0 : DotDims S32x32x256 S32x256x256 S32x32x256 where
  lhsContracting := [2]
  rhsContracting := [1]
  lhsNonContracting := [1]
  rhsNonContracting := [2]
  lhsBatch := [0]
  rhsBatch := [0]
  wf := dot_S32x32x256_S32x256x256_S32x32x256_2_1_1_2_0_0_wf

abbrev win0_0 : Pipeline.Window sig grid0 :=
  Pipeline.Window.ofSpec (Memref.whole main_v1) S32x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x32x32x256 : Shape := ⟨4, ![32, 32, 32, 256]⟩
abbrev S32x32x256x256 : Shape := ⟨4, ![32, 32, 256, 256]⟩
abbrev S_ : Shape := ⟨0, ![]⟩
abbrev S32x32x256 : Shape := ⟨3, ![32, 32, 256]⟩
abbrev S32x32x1x256 : Shape := ⟨4, ![32, 32, 1, 256]⟩
abbrev S32x32x32 : Shape := ⟨3, ![32, 32, 32]⟩
abbrev S32x32x32x1 : Shape := ⟨4, ![32, 32, 32, 1]⟩

abbrev nBuf : Space → Nat
  | .hbm => 38
  | .vmem => 0
  | .smem => 0
  | _ => 0

abbrev bufTy : (tb : Table) → Fin (tcTables nBuf tb) → BufTy
  | .hbm, ⟨0, _⟩ => ⟨S32x32x32x256, .f32⟩
  | .hbm, ⟨1, _⟩ => ⟨S32x32x256x256, .f32⟩
  | .hbm, ⟨2, _⟩ => ⟨S32x32x256x256, .f32⟩
  | .hbm, ⟨3, _⟩ => ⟨S_, .f32⟩
  | .hbm, ⟨4, _⟩ => ⟨S32x32x256, .f32⟩
  | .hbm, ⟨5, _⟩ => ⟨S_, .f32⟩
  | .hbm, ⟨6, _⟩ => ⟨S32x32x256, .f32⟩
  | .hbm, ⟨7, _⟩ => ⟨S32x32x256, .f32⟩
  | .hbm, ⟨8, _⟩ => ⟨S32x32x1x256, .f32⟩
  | .hbm, ⟨9, _⟩ => ⟨S32x32x256x256, .f32⟩
  | .hbm, ⟨10, _⟩ => ⟨S32x32x256x256, .f32⟩
  | .hbm, ⟨11, _⟩ => ⟨S32x32x256x256, .f32⟩
  | .hbm, ⟨12, _⟩ => ⟨S_, .f32⟩
  | .hbm, ⟨13, _⟩ => ⟨S32x32x256, .f32⟩
  | .hbm, ⟨14, _⟩ => ⟨S32x32x1x256, .f32⟩
  | .hbm, ⟨15, _⟩ => ⟨S32x32x1x256, .f32⟩
  | .hbm, ⟨16, _⟩ => ⟨S32x32x256x256, .f32⟩
  | .hbm, ⟨17, _⟩ => ⟨S32x32x256x256, .f32⟩
  | .hbm, ⟨18, _⟩ => ⟨S32x32x32x256, .f32⟩
  | .hbm, ⟨19, _⟩ => ⟨S_, .f32⟩
  | .hbm, ⟨20, _⟩ => ⟨S32x32x32, .f32⟩
  | .hbm, ⟨21, _⟩ => ⟨S32x32x32x1, .f32⟩
  | .hbm, ⟨22, _⟩ => ⟨S_, .f32⟩
  | .hbm, ⟨23, _⟩ => ⟨S32x32x256, .f32⟩
  | .hbm, ⟨24, _⟩ => ⟨S32x32x1x256, .f32⟩
  | .hbm, ⟨25, _⟩ => ⟨S32x32x32x256, .f32⟩
  | .hbm, ⟨26, _⟩ => ⟨S32x32x32x256, .f32⟩
  | .hbm, ⟨27, _⟩ => ⟨S32x32x32x256, .f32⟩
  | .hbm, ⟨28, _⟩ => ⟨S32x32x256x256, .f32⟩
  | .hbm, ⟨29, _⟩ => ⟨S32x32x256x256, .f32⟩
  | .hbm, ⟨30, _⟩ => ⟨S32x32x256x256, .f32⟩
  | .hbm, ⟨31, _⟩ => ⟨S32x32x32x256, .f32⟩
  | .hbm, ⟨32, _⟩ => ⟨S32x32x32x256, .f32⟩
  | .hbm, ⟨33, _⟩ => ⟨S32x32x32x256, .f32⟩
  | .hbm, ⟨34, _⟩ => ⟨S32x32x32x256, .f32⟩
  | .hbm, ⟨35, _⟩ => ⟨S32x32x32x256, .f32⟩
  | .hbm, ⟨36, _⟩ => ⟨S32x32x32x256, .f32⟩
  | .hbm, ⟨37, _⟩ => ⟨S32x32x32x256, .f32⟩
  | _, _ => ⟨S32x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]

class Facts₀ : Prop where
  reducesTo_S32x32x256x256_S32x32x256_d2 : S32x32x256x256.ReducesTo [2] S32x32x256
  h_S_ : 0 < S_.numel
  bcast_S_S32x32x256 : S_.BroadcastsInDim S32x32x256 (![] : Fin 0 → Fin S32x32x256.rank)
  bcast_S32x32x256_S32x32x1x256_0_1_3 : S32x32x256.BroadcastsInDim S32x32x1x256 (![0, 1, 3] : Fin 3 → Fin S32x32x1x256.rank)
  bcast_S32x32x1x256_S32x32x256x256_0_1_2_3 : S32x32x1x256.BroadcastsInDim S32x32x256x256 (![0, 1, 2, 3] : Fin 4 → Fin S32x32x256x256.rank)
  transposes_S32x32x32x256_S32x32x32x256_1_2_0_3 : S32x32x32x256.Transposes [1, 2, 0, 3] S32x32x32x256
  reducesTo_S32x32x32x256_S32x32x32_d3 : S32x32x32x256.ReducesTo [3] S32x32x32
  bcast_S32x32x32_S32x32x32x1_0_1_2 : S32x32x32.BroadcastsInDim S32x32x32x1 (![0, 1, 2] : Fin 3 → Fin S32x32x32x1.rank)
  bcast_S32x32x32x1_S32x32x32x256_0_1_2_3 : S32x32x32x1.BroadcastsInDim S32x32x32x256 (![0, 1, 2, 3] : Fin 4 → Fin S32x32x32x256.rank)
  bcast_S32x32x1x256_S32x32x32x256_0_1_2_3 : S32x32x1x256.BroadcastsInDim S32x32x32x256 (![0, 1, 2, 3] : Fin 4 → Fin S32x32x32x256.rank)
  transposes_S32x32x32x256_S32x32x32x256_2_0_1_3 : S32x32x32x256.Transposes [2, 0, 1, 3] S32x32x32x256
  dot_S32x32x32x256_S32x32x256x256_S32x32x32x256_3_2_2_3_01_01_wf : DotDims.WF S32x32x32x256 S32x32x256x256 S32x32x32x256 [3] [2] [2] [3] [0, 1] [0, 1]

variable [Facts₀]

def dot_S32x32x32x256_S32x32x256x256_S32x32x32x256_3_2_2_3_01_01 : DotDims S32x32x32x256 S32x32x256x256 S32x32x32x256 where
  lhsContracting := [3]
  rhsContracting := [2]
  lhsNonContracting := [2]
  rhsNonContracting := [3]
  lhsBatch := [0, 1]
  rhsBatch := [0, 1]
  wf := dot_S32x32x32x256_S32x32x256x256_S32x32x32x256_3_2_2_3_01_01_wf

class Facts : Prop extends Facts₀ where

variable [Facts]
-- ==== Proof.KernelHost.lean ====
/-
  The kernel program around its region. Before the region two layout moves prepare the region's arrays: `x` is
  transposed to scopes-first order (v, h, b, k) and its two scope axes flattened to one axis of 1024; the
  accumulators' two scope axes are flattened likewise. After the region the result's scope axis is split back into
  (v, h) and the array transposed to batch-first order. This module reads those operations: what the region finds in
  its two input arrays, and the program's result as the last two moves applied to whatever the region's output
  array ends holding.
-/
import proofs.«154636_j42442866819598_1_alg».proof.Proof.Gen.KernelIdeal.Frame
import Idealize.ShloMosaic.Lib.StableHlo.Run
import Idealize.ShloMosaic.Lib.Pipeline.Value
import Idealize.ShloMosaic.Lib.Tactic
import Idealize.ShloMosaic.PureOps.Ideal

noncomputable section

namespace Cert.KernelIdeal.Hand

open Idealize.ShloMosaic Idealize.ShloMosaic.TcCoe Idealize.SL.Sem Cert.KernelIdeal Cert.KernelIdeal.Gen
  Idealize.ShloMosaic.StableHlo

variable (m : (ℓ : Loc nD τ sig) → Buf (Elt Ideal) ℓ)

/-- The region's first array: `x` in scopes-first order with the two scope axes flattened. -/
theorem V_main_v1 (c : Dev nD) : (V m c main_v1 : S1024x32x256.Idx → EReal)
    = shapeCast S1024x32x256 (transpose S32x32x32x256 [1, 2, 0, 3] (m ((c : Thread nD τ).loc main_arg0))
        transposes_S32x32x32x256_S32x32x32x256_1_2_0_3) shapeCasts_S32x32x32x256_S1024x32x256 := by
  show StableHlo.after hostOps0 (fun b => m (c, b)) (Proc.devRef .tc main_v1) = _
  after_results
  rfl

/-- The region's second array: the accumulators with the two scope axes flattened. -/
theorem V_main_v2 (c : Dev nD) : (V m c main_v2 : S1024x256x256.Idx → EReal)
    = shapeCast S1024x256x256 (m ((c : Thread nD τ).loc main_arg1)) shapeCasts_S32x32x256x256_S1024x256x256 := by
  show StableHlo.after hostOps0 (fun b => m (c, b)) (Proc.devRef .tc main_v2) = _
  after_results
  rfl

/-- The program's result buffer after the lines that follow the region: the region's output array, whatever it
    ends holding (`G`), with its scope axis split back and the batch axis moved to the front. -/
theorem tail_v5 (c : Dev nD) (G : S1024x32x256.Idx → EReal) (hfinal : (dats m 0 c).arrAt 2 cfg0.N = G) :
    Pipeline.afterTail₀ cfgs (dats m) 0 (V0 m) [hostOps1] c main_v5
    = transpose S32x32x32x256 [2, 0, 1, 3] (shapeCast S32x32x32x256 G shapeCasts_S1024x32x256_S32x32x32x256)
        transposes_S32x32x32x256_S32x32x32x256_2_0_1_3 := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v3) = G :=
    (Pipeline.withArrays_arr spec0 launch0.win.arr_inj c _ _ 2).trans hfinal
  rw [e]
  rfl

end Cert.KernelIdeal.Hand

end
-- ==== Proof.RowSpec.lean ====
/-
  One output element of either program depends on ONE row of `x` (256 entries, the channel axis) and ONE column of
  `accumulators` (256 entries, the same axis). This module names that dependence, with no program in sight: the
  two row-level values as the two programs compute them on the extended reals.

  Kernel side, for a row `x` and a column `a`:
    log (∑ₖ exp (xₖ − max x) · (aₖ / max a)) + max x + (log (max a) − log (∑ₖ aₖ)).
  Reference side: with `ℓₖ = log aₖ` and the log-softmax `wₖ = (ℓₖ − max ℓ) − log (∑ⱼ exp (ℓⱼ − max ℓ))`,
    log (∑ₖ exp (xₖ − max x) · exp (wₖ − max w)) + max x + max w.
  Every maximum is a fold of `max` from the word of −∞, every sum a finite sum; the host's sum starts from the
  word of zero, and the log-softmax's maximum is once more joined with −∞ (as the library routine spells it).
-/
import Idealize.ShloMosaic.PureOps.Ideal
import Idealize.ShloMosaic.PureOps.Ideal.Laws

noncomputable section

namespace Cert.RowSpec

open Idealize.ShloMosaic

/-- The word of −∞ both programs start their maxima from, read as an extended real. -/
abbrev negInf : EReal := Ideal.ofBits .f32 0xFF800000#32
/-- The word of zero the host's sum starts from, read as an extended real. -/
abbrev zeroW : EReal := Ideal.ofBits .f32 0x00000000#32

/-- The maximum of 256 extended reals, folded from −∞. -/
def rowMax (f : Fin 256 → EReal) : EReal := (Finset.univ : Finset (Fin 256)).fold max negInf f

/-- The kernel's value from a row of `x` and a column of `accumulators`: the weights are the column divided by
    its maximum, and the shift `log (max a) − log (∑ a)` is added back after the logarithm. -/
def kernelRow (x a : Fin 256 → EReal) : EReal :=
  Ideal.log (∑ k : Fin 256, Ideal.exp (x k - rowMax x) * Ideal.div (a k) (rowMax a)) + rowMax x
    + (Ideal.log (rowMax a) - Ideal.log (∑ k : Fin 256, a k))

/-- The log-softmax of 256 extended reals, as the library routine computes it. -/
def logSoftmaxRow (l : Fin 256 → EReal) (k : Fin 256) : EReal :=
  (l k - max negInf (rowMax l)) - Ideal.log (zeroW + ∑ j : Fin 256, Ideal.exp (l j - max negInf (rowMax l)))

/-- The reference's value from the same row and column: the weights are the exponentials of the log-softmax of
    `log a` shifted by its maximum, and that maximum is added back after the logarithm. -/
def refRow (x a : Fin 256 → EReal) : EReal :=
  Ideal.log (∑ k : Fin 256, Ideal.exp (x k - rowMax x)
      * Ideal.exp (logSoftmaxRow (fun j => Ideal.log (a j)) k - rowMax (logSoftmaxRow fun j => Ideal.log (a j))))
    + rowMax x + rowMax (logSoftmaxRow fun j => Ideal.log (a j))

end Cert.RowSpec

end
-- ==== Proof.LibKeepdims.lean ====
/-
  Keepdims layout moves read at an index, for any element type and any extents: a rank-2 array given a unit axis in
  the middle or at the end by a shape cast, and a rank-3 array with such a unit axis broadcast along it. Each is the
  library's general read (equal row-major positions for a cast; the operand's unit axes read at 0 for a broadcast)
  with both indices written by coordinates.
-/
import Idealize.ShloMosaic.Lib.Pipeline.Value
import Idealize.ShloMosaic.Lib.ValueIdx

namespace Cert.LibKeepdims

open Idealize.ShloMosaic Idealize.ShloMosaic.ValueIdx

variable {α : Type}

/-- An `[a, c]` array cast to `[a, 1, c]` reads, at `(p, u, q)`, the operand at `(p, q)`: the unit axis adds
    nothing to the row-major position. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, 1, c]` array broadcast to `[a, b, c]` reads, at `(p, k, q)`, the operand at `(p, 0, q)`: the
    middle coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- An `[a, b, 1]` array broadcast to `[a, b, c]` reads, at `(p, q, k)`, the operand at `(p, q, 0)`: the last
    coordinate is forgotten. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

end Cert.LibKeepdims
-- ==== Proof.KernelBody.lean ====
/-
  The kernel body's arithmetic at one index. The body computes, from a block `x0` of shape [32, 32, 256]
  (scopes × batch × channel) and a block `x1` of shape [32, 256, 256] (scopes × channel × out), one block of shape
  [32, 32, 256] (scopes × batch × out). Its entry at (g, b, s) depends on the row `x0 (g, b, ·)` and the column
  `x1 (g, ·, s)` only, and is `RowSpec.kernelRow` of the two: the column's maximum and sum are lane reductions
  over the channel axis, kept as a unit axis and broadcast back; the row's maximum likewise; the product is one
  batched matrix product over the channel axis into a zero accumulator.
-/
import proofs.«154636_j42442866819598_1_alg».proof.Proof.Gen.KernelIdeal.Skeleton
import proofs.«154636_j42442866819598_1_alg».proof.Proof.RowSpec
import proofs.«154636_j42442866819598_1_alg».proof.Proof.LibKeepdims
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen Cert.LibKeepdims

/-- The maximum over the channel axis of a [32, 256, 256] block, at (g, s): the column's maximum. -/
theorem colMax_apply (x1 : FVec Ideal S32x256x256 .f32) (g : Fin 32) (s : Fin 256) :
    multiReduction .maximumf [1] S32x256 x1 0xFF800000#32 reduces_S32x256x256_S32x256 (.inl rfl) rfl (ix2 g s)
      = RowSpec.rowMax (fun k => x1 (ix3 g k s)) := by
  refine (Ideal.multiReduction_maximumf_single x1 0xFF800000#32 reduces_S32x256x256_S32x256 (.inl rfl) rfl (ix2 g s)).trans ?_
  unfold RowSpec.rowMax
  show Finset.fold max _ _ (Finset.univ : Finset (Fin 256)) = _
  refine congrArg (fun f => Finset.fold max RowSpec.negInf f (Finset.univ : Finset (Fin 256)))
    (funext fun k => congrArg x1 (funext fun a => Fin.ext ?_))
  match a with
  | ⟨0, _⟩ => rfl
  | ⟨1, _⟩ => rfl
  | ⟨2, _⟩ => rfl

/-- The sum over the channel axis of a [32, 256, 256] block, at (g, s): the column's sum. -/
theorem colSum_apply (x1 : FVec Ideal S32x256x256 .f32) (g : Fin 32) (s : Fin 256) :
    multiReduction .add [1] S32x256 x1 0x00000000#32 reduces_S32x256x256_S32x256 (.inl rfl) rfl (ix2 g s)
      = ∑ k : Fin 256, x1 (ix3 g k s) := by
  refine (Ideal.multiReduction_add_single x1 0x00000000#32 reduces_S32x256x256_S32x256 (.inl rfl) rfl (ix2 g s)).trans ?_
  show ∑ k : Fin 256, _ = _
  refine Finset.sum_congr rfl fun k _ => congrArg x1 (funext fun a => Fin.ext ?_)
  match a with
  | ⟨0, _⟩ => rfl
  | ⟨1, _⟩ => rfl
  | ⟨2, _⟩ => rfl

/-- The maximum over the channel axis of a [32, 32, 256] block, at (g, b): the row's maximum. -/
theorem rowMax_apply (x0 : FVec Ideal S32x32x256 .f32) (g b : Fin 32) :
    multiReduction .maximumf [2] S32x32 x0 0xFF800000#32 reduces_S32x32x256_S32x32 (.inl rfl) rfl (ix2 g b)
      = RowSpec.rowMax (fun k => x0 (ix3 g b k)) := by
  refine (Ideal.multiReduction_maximumf_single x0 0xFF800000#32 reduces_S32x32x256_S32x32 (.inl rfl) rfl (ix2 g b)).trans ?_
  unfold RowSpec.rowMax
  show Finset.fold max _ _ (Finset.univ : Finset (Fin 256)) = _
  refine congrArg (fun f => Finset.fold max RowSpec.negInf f (Finset.univ : Finset (Fin 256)))
    (funext fun k => congrArg x0 (funext fun a => Fin.ext ?_))
  match a with
  | ⟨0, _⟩ => rfl
  | ⟨1, _⟩ => rfl
  | ⟨2, _⟩ => rfl

/-- A vector logarithm and exponential at an index are the scalar ones. -/
theorem log_apply' {s : Shape} (a : FVec Ideal s .f32) (i : s.Idx) : log a i = Ideal.log (a i) := rfl
theorem exp_apply' {s : Shape} (a : FVec Ideal s .f32) (i : s.Idx) : exp a i = Ideal.exp (a i) := rfl

/-! ## The body's three reductions, each kept as a unit axis -/

/-- The column maxima of a [32, 256, 256] block, as a [32, 1, 256] array. -/
def colMaxK (v1 : FVec Ideal S32x256x256 .f32) : FVec Ideal S32x1x256 .f32 :=
  shapeCast S32x1x256 (multiReduction .maximumf [1] S32x256 v1 0xFF800000#32 reduces_S32x256x256_S32x256 (.inl rfl) rfl)
    shapeCasts_S32x256_S32x1x256
/-- The column sums, as a [32, 1, 256] array. -/
def colSumK (v1 : FVec Ideal S32x256x256 .f32) : FVec Ideal S32x1x256 .f32 :=
  shapeCast S32x1x256 (multiReduction .add [1] S32x256 v1 0x00000000#32 reduces_S32x256x256_S32x256 (.inl rfl) rfl)
    shapeCasts_S32x256_S32x1x256
/-- The row maxima of a [32, 32, 256] block, as a [32, 32, 1] array. -/
def rowMaxK (v12 : FVec Ideal S32x32x256 .f32) : FVec Ideal S32x32x1 .f32 :=
  shapeCast S32x32x1 (multiReduction .maximumf [2] S32x32 v12 0xFF800000#32 reduces_S32x32x256_S32x32 (.inl rfl) rfl)
    shapeCasts_S32x32_S32x32x1

theorem colMaxK_apply (v1 : FVec Ideal S32x256x256 .f32) (g : Fin 32) (u : Fin 1) (s : Fin 256) :
    colMaxK v1 (ix3 g u s) = RowSpec.rowMax (fun k => v1 (ix3 g k s)) :=
  (shapeCast_ac_a1c_apply _ shapeCasts_S32x256_S32x1x256 g u s).trans (colMax_apply v1 g s)
theorem colSumK_apply (v1 : FVec Ideal S32x256x256 .f32) (g : Fin 32) (u : Fin 1) (s : Fin 256) :
    colSumK v1 (ix3 g u s) = ∑ k : Fin 256, v1 (ix3 g k s) :=
  (shapeCast_ac_a1c_apply _ shapeCasts_S32x256_S32x1x256 g u s).trans (colSum_apply v1 g s)
theorem rowMaxK_apply (v12 : FVec Ideal S32x32x256 .f32) (g b : Fin 32) (u : Fin 1) :
    rowMaxK v12 (ix3 g b u) = RowSpec.rowMax (fun k => v12 (ix3 g b k)) :=
  (shapeCast_ab_ab1_apply _ shapeCasts_S32x32_S32x32x1 g b u).trans (rowMax_apply v12 g b)

/-- The row maximum broadcast back along the channel. -/
theorem rowMaxB_apply (v12 : FVec Ideal S32x32x256 .f32) (g b : Fin 32) (k : Fin 256) :
    broadcastTo S32x32x256 (rowMaxK v12) broadcasts_S32x32x1_S32x32x256 (ix3 g b k)
      = RowSpec.rowMax (fun k => v12 (ix3 g b k)) :=
  (broadcastTo_ab1_abc_apply _ broadcasts_S32x32x1_S32x32x256 g b k).trans (rowMaxK_apply v12 g b 0)
/-- The column maximum broadcast back along the channel. -/
theorem colMaxB_apply (v1 : FVec Ideal S32x256x256 .f32) (g : Fin 32) (k s : Fin 256) :
    broadcastTo S32x256x256 (colMaxK v1) broadcasts_S32x1x256_S32x256x256 (ix3 g k s)
      = RowSpec.rowMax (fun k => v1 (ix3 g k s)) :=
  (broadcastTo_a1c_abc_apply _ broadcasts_S32x1x256_S32x256x256 g k s).trans (colMaxK_apply v1 g 0 s)
/-- The shift log (max) − log (sum) of a column, broadcast along the batch. -/
theorem shiftB_apply (v1 : FVec Ideal S32x256x256 .f32) (g b : Fin 32) (s : Fin 256) :
    broadcastTo S32x32x256 (subf (log (colMaxK v1)) (log (colSumK v1))) broadcasts_S32x1x256_S32x32x256 (ix3 g b s)
      = Ideal.log (RowSpec.rowMax (fun k => v1 (ix3 g k s))) - Ideal.log (∑ k : Fin 256, v1 (ix3 g k s)) := by
  refine (broadcastTo_a1c_abc_apply _ broadcasts_S32x1x256_S32x32x256 g b s).trans ?_
  refine (subf_apply (log (colMaxK v1)) (log (colSumK v1)) (ix3 g (0 : Fin 1) s)).trans ?_
  refine congrArg₂ (· - ·) ?_ ?_
  · exact (log_apply' (colMaxK v1) (ix3 g (0 : Fin 1) s)).trans (congrArg Ideal.log (colMaxK_apply v1 g 0 s))
  · exact (log_apply' (colSumK v1) (ix3 g (0 : Fin 1) s)).trans (congrArg Ideal.log (colSumK_apply v1 g 0 s))

/-! ## The body after its two loads -/

/-- The stored block as a function of the two loaded blocks: the product of the shifted exponentials of the rows
    with the columns divided by their maxima, its logarithm, and the two shifts added back. -/
def payOf (v1 : FVec Ideal S32x256x256 .f32) (v12 : FVec Ideal S32x32x256 .f32) : FVec Ideal S32x32x256 .f32 :=
  addf (addf (log (matmul dot_S32x32x256_S32x256x256_S32x32x256_2_1_1_2_0_0 none
      (truncf .bf16 (exp (subf v12 (broadcastTo S32x32x256 (rowMaxK v12) broadcasts_S32x32x1_S32x32x256))) bitsLt_bf16_f32)
      (truncf .bf16 (divf v1 (broadcastTo S32x256x256 (colMaxK v1) broadcasts_S32x1x256_S32x256x256)) bitsLt_bf16_f32)
      (constant S32x32x256 .f32 0x00000000#32)))
    (broadcastTo S32x32x256 (rowMaxK v12) broadcasts_S32x32x1_S32x32x256))
    (broadcastTo S32x32x256 (subf (log (colMaxK v1)) (log (colSumK v1))) broadcasts_S32x1x256_S32x32x256)

/-- The printed body's arithmetic is that function of its two loads (each passed through a cast to its own shape). -/
theorem pay_eq (x1 : Vec Ideal S32x256x256 .f32) (x0 : Vec Ideal S32x32x256 .f32) :
    k0_pay1 (F := Ideal) x1 x0
      = payOf (shapeCast S32x256x256 x1 shapeCasts_S32x256x256_S32x256x256)
          (shapeCast S32x32x256 x0 shapeCasts_S32x32x256_S32x32x256) := rfl

end Cert.KernelIdeal.Body

end
-- ==== Proof.KernelProduct.lean ====
/-
  THE BATCHED MATRIX PRODUCT, READ AT AN INDEX. The product contracts the last axis of its first operand with the middle
  axis of its second, the leading axis of both being a batch axis: result (g, b, s) is the sum over the channel k of
  first operand (g, b, k) times second operand (g, k, s), plus the accumulator, here the zero splat. The operand indices
  the dimension numbers name are computed coordinate by coordinate: a batch or free axis reads the result index at its
  position among the result's axes, the contracted axis the contraction position's one coordinate; the sum over
  contraction positions is then re-indexed by that coordinate.
-/
import proofs.«154636_j42442866819598_1_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-! The operand indices of the batched product, coordinate by coordinate, at any result index and contraction position:
    the leading axis is the batch axis of both operands, the contracted axis is the channel (the last axis of the first
    operand, the middle one of the second). -/

theorem lhs_scope (i : S32x32x256.Idx) (q : dot_S32x32x256_S32x256x256_S32x32x256_2_1_1_2_0_0.contr.Idx) :
    (dot_S32x32x256_S32x256x256_S32x32x256_2_1_1_2_0_0.lhsIdx i q 0).val = (i 0).val := by
  unfold DotDims.lhsIdx
  rw [dif_pos (show (0 : Fin S32x32x256.rank) ∈ dot_S32x32x256_S32x256x256_S32x32x256_2_1_1_2_0_0.lhsBatch by decide)]
  rfl
theorem lhs_batch (i : S32x32x256.Idx) (q : dot_S32x32x256_S32x256x256_S32x32x256_2_1_1_2_0_0.contr.Idx) :
    (dot_S32x32x256_S32x256x256_S32x32x256_2_1_1_2_0_0.lhsIdx i q 1).val = (i 1).val := by
  unfold DotDims.lhsIdx
  rw [dif_neg (show ¬(1 : Fin S32x32x256.rank) ∈ dot_S32x32x256_S32x256x256_S32x32x256_2_1_1_2_0_0.lhsBatch by decide),
    dif_pos (show (1 : Fin S32x32x256.rank) ∈ dot_S32x32x256_S32x256x256_S32x32x256_2_1_1_2_0_0.lhsNonContracting by decide)]
  rfl
theorem lhs_channel (i : S32x32x256.Idx) (q : dot_S32x32x256_S32x256x256_S32x32x256_2_1_1_2_0_0.contr.Idx) :
    (dot_S32x32x256_S32x256x256_S32x32x256_2_1_1_2_0_0.lhsIdx i q 2).val = (q ⟨0, by decide⟩).val :=
  dot_S32x32x256_S32x256x256_S32x32x256_2_1_1_2_0_0.lhsIdx_val_of_single rfl i q
theorem rhs_scope (i : S32x32x256.Idx) (q : dot_S32x32x256_S32x256x256_S32x32x256_2_1_1_2_0_0.contr.Idx) :
    (dot_S32x32x256_S32x256x256_S32x32x256_2_1_1_2_0_0.rhsIdx i q 0).val = (i 0).val := by
  unfold DotDims.rhsIdx
  rw [dif_pos (show (0 : Fin S32x256x256.rank) ∈ dot_S32x32x256_S32x256x256_S32x32x256_2_1_1_2_0_0.rhsBatch by decide)]
  rfl
theorem rhs_channel (i : S32x32x256.Idx) (q : dot_S32x32x256_S32x256x256_S32x32x256_2_1_1_2_0_0.contr.Idx) :
    (dot_S32x32x256_S32x256x256_S32x32x256_2_1_1_2_0_0.rhsIdx i q 1).val = (q ⟨0, by decide⟩).val :=
  dot_S32x32x256_S32x256x256_S32x32x256_2_1_1_2_0_0.rhsIdx_val_of_single rfl i q
theorem rhs_out (i : S32x32x256.Idx) (q : dot_S32x32x256_S32x256x256_S32x32x256_2_1_1_2_0_0.contr.Idx) :
    (dot_S32x32x256_S32x256x256_S32x32x256_2_1_1_2_0_0.rhsIdx i q 2).val = (i 2).val := by
  unfold DotDims.rhsIdx
  rw [dif_neg (show ¬(2 : Fin S32x256x256.rank) ∈ dot_S32x32x256_S32x256x256_S32x32x256_2_1_1_2_0_0.rhsBatch by decide),
    dif_pos (show (2 : Fin S32x256x256.rank) ∈ dot_S32x32x256_S32x256x256_S32x32x256_2_1_1_2_0_0.rhsNonContracting by decide)]
  rfl

/-- The first operand's index at result index (g, b, s) and a contraction position whose one coordinate is k. -/
theorem lhsIdx_ix3 (g b : Fin 32) (s k : Fin 256) (q : dot_S32x32x256_S32x256x256_S32x32x256_2_1_1_2_0_0.contr.Idx)
    (hq : (q ⟨0, by decide⟩).val = k.val) :
    dot_S32x32x256_S32x256x256_S32x32x256_2_1_1_2_0_0.lhsIdx (ix3 g b s) q = ix3 g b k :=
  funext fun a => Fin.ext (by
    match a with
    | ⟨0, _⟩ => exact lhs_scope (ix3 g b s) q
    | ⟨1, _⟩ => exact lhs_batch (ix3 g b s) q
    | ⟨2, _⟩ => exact (lhs_channel (ix3 g b s) q).trans hq)

/-- The second operand's index likewise. -/
theorem rhsIdx_ix3 (g b : Fin 32) (s k : Fin 256) (q : dot_S32x32x256_S32x256x256_S32x32x256_2_1_1_2_0_0.contr.Idx)
    (hq : (q ⟨0, by decide⟩).val = k.val) :
    dot_S32x32x256_S32x256x256_S32x32x256_2_1_1_2_0_0.rhsIdx (ix3 g b s) q = ix3 g k s :=
  funext fun a => Fin.ext (by
    match a with
    | ⟨0, _⟩ => exact rhs_scope (ix3 g b s) q
    | ⟨1, _⟩ => exact (rhs_channel (ix3 g b s) q).trans hq
    | ⟨2, _⟩ => exact rhs_out (ix3 g b s) q)

/-- The batched product into a zero accumulator, at (g, b, s): the sum over the channel of row times column. -/
theorem product_apply (l : FVec Ideal S32x32x256 .bf16) (r : FVec Ideal S32x256x256 .bf16) (g b : Fin 32) (s : Fin 256) :
    matmul dot_S32x32x256_S32x256x256_S32x32x256_2_1_1_2_0_0 none l r (constant S32x32x256 .f32 0x00000000#32) (ix3 g b s)
      = ∑ k : Fin 256, l (ix3 g b k) * r (ix3 g k s) := by
  simp only [matmul]
  rw [Ideal.matmul_constant_zero_apply,
    ← Equiv.sum_comp (ValueIdx.contrEquiv1 dot_S32x32x256_S32x256x256_S32x32x256_2_1_1_2_0_0 256 rfl rfl).symm]
  refine Finset.sum_congr rfl fun k _ => ?_
  have hk := ValueIdx.contrEquiv1_symm_val dot_S32x32x256_S32x256x256_S32x32x256_2_1_1_2_0_0 256 rfl rfl k
  rw [lhsIdx_ix3 g b s k _ hk, rhsIdx_ix3 g b s k _ hk]

end Cert.KernelIdeal.Body

end
-- ==== Proof.KernelPay.lean ====
/-
  The kernel body at an index, assembled: entry (g, b, s) of the stored block is the row-level value
  `RowSpec.kernelRow` of row (g, b, ·) of the first loaded block and column (g, ·, s) of the second. The product's
  factor from the first block is exp (row − its maximum), the factor from the second is column / its maximum; the
  two format changes in front of the product are the identity on extended reals.
-/
import proofs.«154636_j42442866819598_1_alg».proof.Proof.KernelBody
import proofs.«154636_j42442866819598_1_alg».proof.Proof.KernelProduct

noncomputable section

namespace Cert.KernelIdeal.Body

open Idealize.ShloMosaic Idealize.ShloMosaic.ValueIdx Cert.KernelIdeal Cert.KernelIdeal.Gen

/-- The body after its loads, at an index. -/
theorem payOf_apply (v1 : FVec Ideal S32x256x256 .f32) (v12 : FVec Ideal S32x32x256 .f32) (g b : Fin 32) (s : Fin 256) :
    payOf v1 v12 (ix3 g b s) = RowSpec.kernelRow (fun k => v12 (ix3 g b k)) (fun k => v1 (ix3 g k s)) := by
  unfold RowSpec.kernelRow payOf
  refine (addf_apply _ _ _).trans (congrArg₂ (· + ·)
    ((addf_apply _ _ _).trans (congrArg₂ (· + ·) ?_ (rowMaxB_apply v12 g b s))) (shiftB_apply v1 g b s))
  refine (log_apply' _ _).trans (congrArg Ideal.log ?_)
  refine (product_apply _ _ g b s).trans (Finset.sum_congr rfl fun k _ => congrArg₂ (· * ·) ?_ ?_)
  · exact (truncf_apply (ψ := .bf16)
        (exp (subf v12 (broadcastTo S32x32x256 (rowMaxK v12) broadcasts_S32x32x1_S32x32x256))) bitsLt_bf16_f32 (ix3 g b k)).trans
      ((exp_apply' (subf v12 (broadcastTo S32x32x256 (rowMaxK v12) broadcasts_S32x32x1_S32x32x256)) (ix3 g b k)).trans
        (congrArg Ideal.exp
          ((subf_apply v12 (broadcastTo S32x32x256 (rowMaxK v12) broadcasts_S32x32x1_S32x32x256) (ix3 g b k)).trans
            (congrArg (v12 (ix3 g b k) - ·) (rowMaxB_apply v12 g b k)))))
  · exact (truncf_apply (ψ := .bf16)
        (divf v1 (broadcastTo S32x256x256 (colMaxK v1) broadcasts_S32x1x256_S32x256x256)) bitsLt_bf16_f32 (ix3 g k s)).trans
      ((divf_apply v1 (broadcastTo S32x256x256 (colMaxK v1) broadcasts_S32x1x256_S32x256x256) (ix3 g k s)).trans
        (congrArg (Ideal.div (v1 (ix3 g k s)) ·) (colMaxB_apply v1 g k s)))

/-- THE BODY AT AN INDEX. -/
theorem pay_apply (x1 : Vec Ideal S32x256x256 .f32) (x0 : Vec Ideal S32x32x256 .f32) (g b : Fin 32) (s : Fin 256) :
    k0_pay1 (F := Ideal) x1 x0 (ix3 g b s)
      = RowSpec.kernelRow (fun k => x0 (ix3 g b k)) (fun k => x1 (ix3 g k s)) := by
  rw [pay_eq, shapeCast_self, shapeCast_self]
  exact payOf_apply x1 x0 g b s

end Cert.KernelIdeal.Body

end
-- ==== Proof.ArraySpec.lean ====
/-
  The region of the kernel program works on arrays whose two scope axes (32 × 32) are flattened into one axis of
  1024: a [1024, 32, 256] array (scopes × batch × channel) and a [1024, 256, 256] array (scopes × channel × out),
  and writes a [1024, 32, 256] array (scopes × batch × out). This module names what it writes as ONE function of the
  two arrays, index by index: entry (g, b, s) is the row-level value of row (g, b, ·) and column (g, ·, s).
-/
import proofs.«154636_j42442866819598_1_alg».proof.Proof.RowSpec
import Idealize.ShloMosaic.Lib.ValueIdx

noncomputable section

namespace Cert.ArraySpec

open Idealize.ShloMosaic Idealize.ShloMosaic.ValueIdx

/-- Scopes × batch × channel, and scopes × batch × out. -/
abbrev SX3 : Shape := ⟨3, ![1024, 32, 256]⟩
/-- Scopes × channel × out. -/
abbrev SA3 : Shape := ⟨3, ![1024, 256, 256]⟩

/-- The array the region writes, as a function of the two arrays it reads. -/
def regionOut (X3 : SX3.Idx → EReal) (A3 : SA3.Idx → EReal) : SX3.Idx → EReal :=
  fun i => RowSpec.kernelRow (fun k => X3 (ix3 (i 0) (i 1) k)) (fun k => A3 (ix3 (i 0) k (i 2)))

theorem regionOut_apply (X3 : SX3.Idx → EReal) (A3 : SA3.Idx → EReal) (g : Fin 1024) (b : Fin 32) (s : Fin 256) :
    regionOut X3 A3 (ix3 g b s) = RowSpec.kernelRow (fun k => X3 (ix3 g b k)) (fun k => A3 (ix3 g k s)) := rfl

end Cert.ArraySpec

end
-- ==== Proof.KernelArray.lean ====
/-
  From blocks to the array. The region runs over 32 grid points. At point t each of its three windows is at block t
  of the first axis (rows 32 t .. 32 t + 31 of 1024) and whole on the other two axes. The body loads its two input
  blocks whole, computes one payload, and stores it whole; every point writes its output block back.

  * Entry (p, b, k) of input block t of the first array is entry (32 t + p, b, k) of the array; likewise for the second.
  * Given that the payload's entry (p, b, s) is the row value of row (p, b, .) of its second operand and column
    (p, ., s) of its first, what point t writes back is block t of the array
        (g, b, s) |-> row value of row (g, b, .) of the first array and column (g, ., s) of the second.
  * The 32 blocks tile the output array (the index with first coordinate r is in block r / 32), so after the last
    point the output array is that function of the two input arrays.
-/
import proofs.«154636_j42442866819598_1_alg».proof.Proof.Gen.KernelIdeal.Frame
import proofs.«154636_j42442866819598_1_alg».proof.Proof.ArraySpec
import Idealize.ShloMosaic.Lib.Pipeline.Value
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

/-- The zero offsets of the body's one load per input and its one store, spelt as a constant function. -/
theorem hz : (![0, 0, 0] : Fin 3 → Nat) = fun _ => 0 := funext fun a => by fin_cases a <;> rfl

/-- The index maps over the 32 grid points: at point t every window is at block t of the first axis and at
    block 0 of the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Block t of the first input array is its rows 32 t .. 32 t + 31 of the first axis: entry (p, b, k) of the block
    is entry (32 t + p, b, k) of the array. -/
theorem iblk0_apply (c : Dev nD) (t : Fin cfg0.N) (p b : Fin 32) (k : Fin 256) (g : Fin 1024)
    (hg : g.val = 32 * t.val + p.val) :
    (iblk m c 0 t : Vec Ideal S32x32x256 .f32) (ix3 p b k)
      = (V m c main_v1 : S1024x32x256.Idx → Elt Ideal .f32) (ix3 g b k) := by
  obtain ⟨e0, e1, e2, -⟩ := idx_facts t
  unfold iblk
  rw [View.read_apply]
  show V m c main_v1 _ = V m c main_v1 _
  congr 1
  funext a
  apply Fin.ext
  match a with
  | ⟨0, _⟩ => show win0_0.index t (0 : Fin 3) * 32 + 1 * p.val = g.val; rw [e0, hg]; omega
  | ⟨1, _⟩ => show win0_0.index t (1 : Fin 3) * 32 + 1 * b.val = b.val; rw [e1]; omega
  | ⟨2, _⟩ => show win0_0.index t (2 : Fin 3) * 256 + 1 * k.val = k.val; rw [e2]; omega

/-- Block t of the second input array likewise: entry (p, k, s) of the block is entry (32 t + p, k, s) of the array. -/
theorem iblk1_apply (c : Dev nD) (t : Fin cfg0.N) (p : Fin 32) (k s : Fin 256) (g : Fin 1024)
    (hg : g.val = 32 * t.val + p.val) :
    (iblk m c 1 t : Vec Ideal S32x256x256 .f32) (ix3 p k s)
      = (V m c main_v2 : S1024x256x256.Idx → Elt Ideal .f32) (ix3 g k s) := by
  obtain ⟨-, -, -, e0, e1, e2, -⟩ := idx_facts t
  unfold iblk
  rw [View.read_apply]
  show V m c main_v2 _ = V m c main_v2 _
  congr 1
  funext a
  apply Fin.ext
  match a with
  | ⟨0, _⟩ => show win0_1.index t (0 : Fin 3) * 32 + 1 * p.val = g.val; rw [e0, hg]; omega
  | ⟨1, _⟩ => show win0_1.index t (1 : Fin 3) * 256 + 1 * k.val = k.val; rw [e1]; omega
  | ⟨2, _⟩ => show win0_1.index t (2 : Fin 3) * 256 + 1 * s.val = s.val; rw [e2]; omega

section Payload

variable (hpay : ∀ (x1 : Vec Ideal S32x256x256 .f32) (x0 : Vec Ideal S32x32x256 .f32) (g b : Fin 32) (s : Fin 256),
      k0_pay1 (F := Ideal) x1 x0 (ix3 g b s) = Cert.RowSpec.kernelRow (fun k => x0 (ix3 g b k)) (fun k => x1 (ix3 g k s)))

include hpay in
/-- What point t writes back is block t of the region's output array: entry (p, b, s) of the written block is the
    row value of row (32 t + p, b, .) of the first array and column (32 t + p, ., s) of the second. -/
theorem flushed_eq (c : Dev nD) (t : Fin cfg0.N) :
    (dats (F := Ideal) m 0 c).flushed 2 t
      = ((cfg0.win 2).blk t).view.read (Elt Ideal) (Cert.ArraySpec.regionOut (V m c main_v1) (V m c main_v2)) := by
  have hN : cfg0.N = 32 := N_0
  obtain ⟨-, -, -, -, -, -, e0, e1, e2⟩ := idx_facts t
  show (cfg0.win 2).cut (grid0.coords t) ((dats (F := Ideal) m 0 c).after 2 t) = _
  rw [after0_2]
  unfold out0_2
  rw [View.canon_unit_zero hz]
  simp only [View.ld_unit_zero (S := S32x32x256) hz, View.ld_unit_zero (S := S32x256x256) hz]
  funext j
  obtain ⟨p, b, s, rfl⟩ : ∃ (p : Fin 32) (b : Fin 32) (s : Fin 256), j = ix3 p b s := ⟨j 0, j 1, j 2, eq_ix3 j⟩
  have hlt : 32 * t.val + p.val < 1024 := by have := t.isLt; omega
  refine (hpay (iblk m c 1 t) (iblk m c 0 t) p b s).trans ?_
  rw [View.read_apply]
  have hemb : ((cfg0.win 2).blk t).view.emb (ix3 p b s) = (ix3 (⟨32 * t.val + p.val, hlt⟩ : Fin 1024) b s : S1024x32x256.Idx) := by
    funext a
    apply Fin.ext
    match a with
    | ⟨0, _⟩ => show win0_2.index t (0 : Fin 3) * 32 + 1 * p.val = 32 * t.val + p.val; rw [e0]; omega
    | ⟨1, _⟩ => show win0_2.index t (1 : Fin 3) * 32 + 1 * b.val = b.val; rw [e1]; omega
    | ⟨2, _⟩ => show win0_2.index t (2 : Fin 3) * 256 + 1 * s.val = s.val; rw [e2]; omega
  show _ = Cert.ArraySpec.regionOut (V m c main_v1) (V m c main_v2) (((cfg0.win 2).blk t).view.emb (ix3 p b s))
  rw [hemb]
  show _ = Cert.RowSpec.kernelRow _ _
  exact congrArg₂ Cert.RowSpec.kernelRow
    (funext fun k => iblk0_apply m c t p b k ⟨32 * t.val + p.val, hlt⟩ rfl)
    (funext fun k => iblk1_apply m c t p k s ⟨32 * t.val + p.val, hlt⟩ rfl)

end Payload

/-- An index of the output array is in point t's block iff, on each axis, it lies in the block's range. -/
theorem mem_blk (t : Fin cfg0.N) (i : S1024x32x256.Idx) :
    i ∈ ((cfg0.win 2).blk t).view.set ↔ ∀ a : Fin 3, win0_2.index t a * S32x32x256.size a ≤ (i a).val
      ∧ (i a).val < win0_2.index t a * S32x32x256.size a + S32x32x256.size a := by
  show i ∈ ((View.whole main_v3).slice (win0_2.rect t)).set ↔ _
  rw [View.set_slice_whole, Rect.mem_set_unit]
  exact Iff.rfl

/-- The 32 blocks tile the output array: the index with first coordinate r lies in the block of point r / 32,
    and every point writes its block back. -/
theorem cover (i : S1024x32x256.Idx) :
    ∃ t : Fin cfg0.N, (cfg0.win 2).flush t = true ∧ i ∈ ((cfg0.win 2).blk t).view.set := by
  have hN : cfg0.N = 32 := N_0
  have hi0 : (i 0).val < 1024 := (i 0).isLt
  have hi1 : (i 1).val < 32 := (i 1).isLt
  have hi2 : (i 2).val < 256 := (i 2).isLt
  obtain ⟨t, ht⟩ : ∃ t : Fin cfg0.N, t.val = (i 0).val / 32 :=
    ⟨⟨(i 0).val / 32, lt_of_lt_of_eq (by omega) hN.symm⟩, rfl⟩
  obtain ⟨-, -, -, -, -, -, e0, e1, e2⟩ := idx_facts t
  refine ⟨t, flush0_2 t, ?_⟩
  rw [mem_blk]
  intro a
  match a with
  | ⟨0, _⟩ =>
    show win0_2.index t (0 : Fin 3) * 32 ≤ (i 0).val ∧ (i 0).val < win0_2.index t (0 : Fin 3) * 32 + 32
    rw [e0, ht]; omega
  | ⟨1, _⟩ =>
    show win0_2.index t (1 : Fin 3) * 32 ≤ (i 1).val ∧ (i 1).val < win0_2.index t (1 : Fin 3) * 32 + 32
    rw [e1]; omega
  | ⟨2, _⟩ =>
    show win0_2.index t (2 : Fin 3) * 256 ≤ (i 2).val ∧ (i 2).val < win0_2.index t (2 : Fin 3) * 256 + 256
    rw [e2]; omega

/-- The output array after the region: the region's output function of the two input arrays as the region finds them. -/
theorem final_out
    (hpay : ∀ (x1 : Vec Ideal S32x256x256 .f32) (x0 : Vec Ideal S32x32x256 .f32) (g b : Fin 32) (s : Fin 256),
      k0_pay1 (F := Ideal) x1 x0 (ix3 g b s) = Cert.RowSpec.kernelRow (fun k => x0 (ix3 g b k)) (fun k => x1 (ix3 g k s)))
    (c : Dev nD) :
    (dats (F := Ideal) m 0 c).arrAt 2 cfg0.N = Cert.ArraySpec.regionOut (V m c main_v1) (V m c main_v2) :=
  (dats (F := Ideal) m 0 c).arrAt_eq_of_cover 2 (Cert.ArraySpec.regionOut (V m c main_v1) (V m c main_v2))
    (fun t _ => flushed_eq m hpay c t) cover

end Cert.KernelIdeal.Blocks

end
-- ==== Proof.KernelRun.lean ====
/-
  The kernel program's run, read: its result buffer ends holding the batch-first transpose of ONE whole-array
  function of the two arguments — for every scope (v, h), batch entry b and output s, the row-level value of row
  x(b, v, h, ·) and column accumulators(v, h, ·, s) — and the arguments end unchanged. The region's output array is
  that function by its blocks (32 scopes per grid point, the points tiling the 1024 scopes); the layout moves before
  and after the region are read off the program.
-/
import proofs.«154636_j42442866819598_1_alg».proof.Proof.KernelHost
import proofs.«154636_j42442866819598_1_alg».proof.Proof.KernelPay
import proofs.«154636_j42442866819598_1_alg».proof.Proof.KernelArray
import proofs.«154636_j42442866819598_1_alg».proof.Proof.ArraySpec

noncomputable section

namespace Cert.KernelIdeal.Hand

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The kernel program's value in scopes-first order (v, h, b, s), as a function of its two arguments: flatten the
    scopes, apply the region's function, split the scopes back. -/
def kernelArr (x : S32x32x32x256.Idx → EReal) (acc : S32x32x256x256.Idx → EReal) : S32x32x32x256.Idx → EReal :=
  shapeCast S32x32x32x256 (Cert.ArraySpec.regionOut
      (shapeCast S1024x32x256 (transpose S32x32x32x256 [1, 2, 0, 3] x transposes_S32x32x32x256_S32x32x32x256_1_2_0_3)
        shapeCasts_S32x32x32x256_S1024x32x256)
      (shapeCast S1024x256x256 acc shapeCasts_S32x32x256x256_S1024x256x256))
    shapeCasts_S1024x32x256_S32x32x32x256

/-- The region's output array after the run is the region's function of the two prepared arguments. -/
theorem final (c : Dev nD) : (dats m 0 c).arrAt 2 cfg0.N
    = Cert.ArraySpec.regionOut
        (shapeCast S1024x32x256 (transpose S32x32x32x256 [1, 2, 0, 3] (m ((c : Thread nD τ).loc main_arg0))
          transposes_S32x32x32x256_S32x32x32x256_1_2_0_3) shapeCasts_S32x32x32x256_S1024x32x256)
        (shapeCast S1024x256x256 (m ((c : Thread nD τ).loc main_arg1)) shapeCasts_S32x32x256x256_S1024x256x256) := by
  rw [← V_main_v1 m c, ← V_main_v2 m c]
  exact Cert.KernelIdeal.Blocks.final_out m Cert.KernelIdeal.Body.pay_apply c

/-- Every weakly fair execution of the kernel program terminates with its result at the transposed whole-array
    function of the arguments, and the arguments unchanged. -/
theorem run : θ_run defs (onTc (τ := τ) (main (F := Ideal))) ⟨m, fun _ => 0, ρ⟩ fun r => ∀ c : Dev nD,
      r.2.mem ((c.tc : Thread nD τ).loc main_v5)
        = transpose S32x32x32x256 [2, 0, 1, 3]
            (kernelArr (m ((c.tc : Thread nD τ).loc main_arg0)) (m ((c.tc : Thread nD τ).loc main_arg1)))
            transposes_S32x32x32x256_S32x32x32x256_2_0_1_3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_v5 m c _ (final m c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.RefRun.lean ====
/-
  The reference program's run, read back.

  @main is a straight line of 36 host operations (the called log-softmax routine's fifteen stand in its call's
  place). The array each one leaves in its buffer is a pure function of the two argument arrays; this module names
  those functions — the log-softmax of an array along its axis 2, and everything between @main's two transposes —
  and proves that every weakly fair execution ends with the result buffer at that composed term and the arguments
  unchanged.
-/
import proofs.«154636_j42442866819598_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The pure terms -/

/-- The maximum along axis 2 from −∞, joined once more with −∞ (the routine's spelling). -/
def lsmMax (l : FVec F S32x32x256x256 .f32) : FVec F S32x32x256 .f32 :=
  maximumf (broadcastInDim S32x32x256 ![] bcast_S_S32x32x256 (constant S_ .f32 0xFF800000#32))
    (Host.reduce FloatOps.maximumf l (constant S_ .f32 0xFF800000#32) reducesTo_S32x32x256x256_S32x32x256_d2 h_S_)

/-- The array minus its maximum along axis 2. -/
def lsmShift (l : FVec F S32x32x256x256 .f32) : FVec F S32x32x256x256 .f32 :=
  subf l (broadcastInDim S32x32x256x256 ![0, 1, 2, 3] bcast_S32x32x1x256_S32x32x256x256_0_1_2_3
    (broadcastInDim S32x32x1x256 ![0, 1, 3] bcast_S32x32x256_S32x32x1x256_0_1_3 (lsmMax l)))

/-- The logarithm of the sum along axis 2 of the exponentials of the shifted array, axis 2 kept at size one. -/
def lsmLogSum (l : FVec F S32x32x256x256 .f32) : FVec F S32x32x1x256 .f32 :=
  Host.log (broadcastInDim S32x32x1x256 ![0, 1, 3] bcast_S32x32x256_S32x32x1x256_0_1_3
    (Host.reduceAdd (Host.exp (lsmShift l)) (constant S_ .f32 0x00000000#32) reducesTo_S32x32x256x256_S32x32x256_d2 h_S_))

/-- The log-softmax along axis 2: the called routine's fifteen operations, composed. -/
def logSoftmaxArr (l : FVec F S32x32x256x256 .f32) : FVec F S32x32x256x256 .f32 :=
  subf (lsmShift l) (broadcastInDim S32x32x256x256 ![0, 1, 2, 3] bcast_S32x32x1x256_S32x32x256x256_0_1_2_3 (lsmLogSum l))

/-- The maximum of the transposed input along its last axis, that axis kept at size one. -/
def xMax (xT : FVec F S32x32x32x256 .f32) : FVec F S32x32x32x1 .f32 :=
  broadcastInDim S32x32x32x1 ![0, 1, 2] bcast_S32x32x32_S32x32x32x1_0_1_2
    (Host.reduce FloatOps.maximumf xT (constant S_ .f32 0xFF800000#32) reducesTo_S32x32x32x256_S32x32x32_d3 h_S_)

/-- The maximum of the log-weights along axis 2, that axis kept at size one. -/
def wMax (lw : FVec F S32x32x256x256 .f32) : FVec F S32x32x1x256 .f32 :=
  broadcastInDim S32x32x1x256 ![0, 1, 3] bcast_S32x32x256_S32x32x1x256_0_1_3
    (Host.reduce FloatOps.maximumf lw (constant S_ .f32 0xFF800000#32) reducesTo_S32x32x256x256_S32x32x256_d2 h_S_)

/-- The stable log-matmul of the transposed input against given log-weights. -/
def logMatmul (xT : FVec F S32x32x32x256 .f32) (lw : FVec F S32x32x256x256 .f32) : FVec F S32x32x32x256 .f32 :=
  addf (addf
      (Host.log (Host.dotGeneral dot_S32x32x32x256_S32x32x256x256_S32x32x32x256_3_2_2_3_01_01 none
        (Host.exp (subf xT (broadcastInDim S32x32x32x256 ![0, 1, 2, 3] bcast_S32x32x32x1_S32x32x32x256_0_1_2_3 (xMax xT))))
        (Host.exp (subf lw (broadcastInDim S32x32x256x256 ![0, 1, 2, 3] bcast_S32x32x1x256_S32x32x256x256_0_1_2_3 (wMax lw))))))
      (broadcastInDim S32x32x32x256 ![0, 1, 2, 3] bcast_S32x32x32x1_S32x32x32x256_0_1_2_3 (xMax xT)))
    (broadcastInDim S32x32x32x256 ![0, 1, 2, 3] bcast_S32x32x1x256_S32x32x32x256_0_1_2_3 (wMax lw))

/-- Everything of @main between its first transpose and its last: the log-weights are the log-softmax of the
    logarithm of the accumulators. -/
def refArr (xT : FVec F S32x32x32x256 .f32) (acc : FVec F S32x32x256x256 .f32) : FVec F S32x32x32x256 .f32 :=
  logMatmul xT (logSoftmaxArr (Host.log acc))

/-! ## The program as a list -/

/-- @main's 36 operations, in order (the called routine's operations stand in its call's place, over typed references). -/
abbrev ops : List (HloOp τ sig (Elt F)) :=
  [ unary main_arg1 main_v0 (Host.log : (⟨S32x32x256x256, .f32⟩ : BufTy).Contents (Elt F) → (⟨S32x32x256x256, .f32⟩ : BufTy).Contents (Elt F)),
    TRef.nullary (TRef.of (T := ⟨S_, .f32⟩) main_call0_cst) (constant S_ .f32 0xFF800000#32),
    TRef.binary (TRef.of (T := ⟨S32x32x256x256, .f32⟩) main_v0) (TRef.of (T := ⟨S_, .f32⟩) main_call0_cst) (TRef.of (T := ⟨S32x32x256, .f32⟩) main_call0_v0) (fun x v => Host.reduce FloatOps.maximumf x v reducesTo_S32x32x256x256_S32x32x256_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S32x32x256, .f32⟩) main_call0_v1) (broadcastInDim S32x32x256 ![] bcast_S_S32x32x256),
    TRef.binary (TRef.of (T := ⟨S32x32x256, .f32⟩) main_call0_v1) (TRef.of (T := ⟨S32x32x256, .f32⟩) main_call0_v0) (TRef.of (T := ⟨S32x32x256, .f32⟩) main_call0_v2) maximumf,
    TRef.unary (TRef.of (T := ⟨S32x32x256, .f32⟩) main_call0_v2) (TRef.of (T := ⟨S32x32x1x256, .f32⟩) main_call0_v3) (broadcastInDim S32x32x1x256 ![0, 1, 3] bcast_S32x32x256_S32x32x1x256_0_1_3),
    TRef.unary (TRef.of (T := ⟨S32x32x1x256, .f32⟩) main_call0_v3) (TRef.of (T := ⟨S32x32x256x256, .f32⟩) main_call0_v4) (broadcastInDim S32x32x256x256 ![0, 1, 2, 3] bcast_S32x32x1x256_S32x32x256x256_0_1_2_3),
    TRef.binary (TRef.of (T := ⟨S32x32x256x256, .f32⟩) main_v0) (TRef.of (T := ⟨S32x32x256x256, .f32⟩) main_call0_v4) (TRef.of (T := ⟨S32x32x256x256, .f32⟩) main_call0_v5) subf,
    TRef.unary (TRef.of (T := ⟨S32x32x256x256, .f32⟩) main_call0_v5) (TRef.of (T := ⟨S32x32x256x256, .f32⟩) main_call0_v6) Host.exp,
    TRef.nullary (TRef.of (T := ⟨S_, .f32⟩) main_call0_cst_1) (constant S_ .f32 0x00000000#32),
    TRef.binary (TRef.of (T := ⟨S32x32x256x256, .f32⟩) main_call0_v6) (TRef.of (T := ⟨S_, .f32⟩) main_call0_cst_1) (TRef.of (T := ⟨S32x32x256, .f32⟩) main_call0_v7) (fun x v => Host.reduceAdd x v reducesTo_S32x32x256x256_S32x32x256_d2 h_S_),
    TRef.unary (TRef.of (T := ⟨S32x32x256, .f32⟩) main_call0_v7) (TRef.of (T := ⟨S32x32x1x256, .f32⟩) main_call0_v8) (broadcastInDim S32x32x1x256 ![0, 1, 3] bcast_S32x32x256_S32x32x1x256_0_1_3),
    TRef.unary (TRef.of (T := ⟨S32x32x1x256, .f32⟩) main_call0_v8) (TRef.of (T := ⟨S32x32x1x256, .f32⟩) main_call0_v9) Host.log,
    TRef.unary (TRef.of (T := ⟨S32x32x1x256, .f32⟩) main_call0_v9) (TRef.of (T := ⟨S32x32x256x256, .f32⟩) main_call0_v10) (broadcastInDim S32x32x256x256 ![0, 1, 2, 3] bcast_S32x32x1x256_S32x32x256x256_0_1_2_3),
    TRef.binary (TRef.of (T := ⟨S32x32x256x256, .f32⟩) main_call0_v5) (TRef.of (T := ⟨S32x32x256x256, .f32⟩) main_call0_v10) (TRef.of (T := ⟨S32x32x256x256, .f32⟩) main_v1) subf,
    unary main_arg0 main_v2 ((transpose S32x32x32x256 [1, 2, 0, 3] · transposes_S32x32x32x256_S32x32x32x256_1_2_0_3) : (⟨S32x32x32x256, .f32⟩ : BufTy).Contents (Elt F) → (⟨S32x32x32x256, .f32⟩ : BufTy).Contents (Elt F)),
    nullary main_cst (constant S_ .f32 0xFF800000#32),
    binary main_v2 main_cst main_v3 ((fun x v => Host.reduce FloatOps.maximumf x v reducesTo_S32x32x32x256_S32x32x32_d3 h_S_) : (⟨S32x32x32x256, .f32⟩ : BufTy).Contents (Elt F) → (⟨S_, .f32⟩ : BufTy).Contents (Elt F) → (⟨S32x32x32, .f32⟩ : BufTy).Contents (Elt F)),
    unary main_v3 main_v4 (broadcastInDim S32x32x32x1 ![0, 1, 2] bcast_S32x32x32_S32x32x32x1_0_1_2 : (⟨S32x32x32, .f32⟩ : BufTy).Contents (Elt F) → (⟨S32x32x32x1, .f32⟩ : BufTy).Contents (Elt F)),
    nullary main_cst_0 (constant S_ .f32 0xFF800000#32),
    binary main_v1 main_cst_0 main_v5 ((fun x v => Host.reduce FloatOps.maximumf x v reducesTo_S32x32x256x256_S32x32x256_d2 h_S_) : (⟨S32x32x256x256, .f32⟩ : BufTy).Contents (Elt F) → (⟨S_, .f32⟩ : BufTy).Contents (Elt F) → (⟨S32x32x256, .f32⟩ : BufTy).Contents (Elt F)),
    unary main_v5 main_v6 (broadcastInDim S32x32x1x256 ![0, 1, 3] bcast_S32x32x256_S32x32x1x256_0_1_3 : (⟨S32x32x256, .f32⟩ : BufTy).Contents (Elt F) → (⟨S32x32x1x256, .f32⟩ : BufTy).Contents (Elt F)),
    unary main_v4 main_v7 (broadcastInDim S32x32x32x256 ![0, 1, 2, 3] bcast_S32x32x32x1_S32x32x32x256_0_1_2_3 : (⟨S32x32x32x1, .f32⟩ : BufTy).Contents (Elt F) → (⟨S32x32x32x256, .f32⟩ : BufTy).Contents (Elt F)),
    binary main_v2 main_v7 main_v8 (subf : (⟨S32x32x32x256, .f32⟩ : BufTy).Contents (Elt F) → (⟨S32x32x32x256, .f32⟩ : BufTy).Contents (Elt F) → (⟨S32x32x32x256, .f32⟩ : BufTy).Contents (Elt F)),
    unary main_v8 main_v9 (Host.exp : (⟨S32x32x32x256, .f32⟩ : BufTy).Contents (Elt F) → (⟨S32x32x32x256, .f32⟩ : BufTy).Contents (Elt F)),
    unary main_v6 main_v10 (broadcastInDim S32x32x256x256 ![0, 1, 2, 3] bcast_S32x32x1x256_S32x32x256x256_0_1_2_3 : (⟨S32x32x1x256, .f32⟩ : BufTy).Contents (Elt F) → (⟨S32x32x256x256, .f32⟩ : BufTy).Contents (Elt F)),
    binary main_v1 main_v10 main_v11 (subf : (⟨S32x32x256x256, .f32⟩ : BufTy).Contents (Elt F) → (⟨S32x32x256x256, .f32⟩ : BufTy).Contents (Elt F) → (⟨S32x32x256x256, .f32⟩ : BufTy).Contents (Elt F)),
    unary main_v11 main_v12 (Host.exp : (⟨S32x32x256x256, .f32⟩ : BufTy).Contents (Elt F) → (⟨S32x32x256x256, .f32⟩ : BufTy).Contents (Elt F)),
    binary main_v9 main_v12 main_v13 ((fun l r => Host.dotGeneral dot_S32x32x32x256_S32x32x256x256_S32x32x32x256_3_2_2_3_01_01 none l r) : (⟨S32x32x32x256, .f32⟩ : BufTy).Contents (Elt F) → (⟨S32x32x256x256, .f32⟩ : BufTy).Contents (Elt F) → (⟨S32x32x32x256, .f32⟩ : BufTy).Contents (Elt F)),
    unary main_v13 main_v14 (Host.log : (⟨S32x32x32x256, .f32⟩ : BufTy).Contents (Elt F) → (⟨S32x32x32x256, .f32⟩ : BufTy).Contents (Elt F)),
    unary main_v4 main_v15 (broadcastInDim S32x32x32x256 ![0, 1, 2, 3] bcast_S32x32x32x1_S32x32x32x256_0_1_2_3 : (⟨S32x32x32x1, .f32⟩ : BufTy).Contents (Elt F) → (⟨S32x32x32x256, .f32⟩ : BufTy).Contents (Elt F)),
    binary main_v14 main_v15 main_v16 (addf : (⟨S32x32x32x256, .f32⟩ : BufTy).Contents (Elt F) → (⟨S32x32x32x256, .f32⟩ : BufTy).Contents (Elt F) → (⟨S32x32x32x256, .f32⟩ : BufTy).Contents (Elt F)),
    unary main_v6 main_v17 (broadcastInDim S32x32x32x256 ![0, 1, 2, 3] bcast_S32x32x1x256_S32x32x32x256_0_1_2_3 : (⟨S32x32x1x256, .f32⟩ : BufTy).Contents (Elt F) → (⟨S32x32x32x256, .f32⟩ : BufTy).Contents (Elt F)),
    binary main_v16 main_v17 main_v18 (addf : (⟨S32x32x32x256, .f32⟩ : BufTy).Contents (Elt F) → (⟨S32x32x32x256, .f32⟩ : BufTy).Contents (Elt F) → (⟨S32x32x32x256, .f32⟩ : BufTy).Contents (Elt F)),
    unary main_v18 main_v19 ((transpose S32x32x32x256 [2, 0, 1, 3] · transposes_S32x32x32x256_S32x32x32x256_2_0_1_3) : (⟨S32x32x32x256, .f32⟩ : BufTy).Contents (Elt F) → (⟨S32x32x32x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub ..⟩

/-! ## Typed references at literal buffers

A typed reference moves contents between the value's type and its buffer's type along the equation of the two; at a
literal buffer both are the same type and the transport is the identity. -/

theorem ofBuf_toBuf {T : BufTy} (x : TRef sig T) (v : T.Contents (Elt F)) : x.ofBuf (x.toBuf v) = v := by
  obtain ⟨r, h, _, _⟩ := x
  subst h
  rfl

theorem ofBuf_main_v0 (h1 h2 h3) (v : (⟨S32x32x256x256, .f32⟩ : BufTy).Contents (Elt F)) :
    (TRef.of (T := ⟨S32x32x256x256, .f32⟩) main_v0 h1 h2 h3).ofBuf v = v := rfl

theorem toBuf_main_v1 (h1 h2 h3) (v : (⟨S32x32x256x256, .f32⟩ : BufTy).Contents (Elt F)) :
    (TRef.of (T := ⟨S32x32x256x256, .f32⟩) main_v1 h1 h2 h3).toBuf v = v := rfl

/-! ## The fold at the buffers read after the run -/

attribute [local irreducible] Host.reduce Host.reduceAdd transpose broadcastInDim in
set_option maxRecDepth 8192 in
set_option maxHeartbeats 1000000 in
/-- The fold of the operations' results at the result buffer is the composed term: each operation's result is its
    function of the contents of the buffers it reads, a buffer it does not write keeps its contents, and the typed
    references' transports cancel. What is left is the same composition of array operations on both sides, the
    named terms unfolded; the array operations stay folded meanwhile, the equation never looks inside them. -/
theorem out_eq (V : Valuation τ sig (Elt F)) :
    after ops V (main_v19 : DevRef τ sig)
      = transpose S32x32x32x256 [2, 0, 1, 3]
          (refArr (transpose S32x32x32x256 [1, 2, 0, 3] (V (main_arg0 : DevRef τ sig)) transposes_S32x32x32x256_S32x32x32x256_1_2_0_3)
            (V (main_arg1 : DevRef τ sig)))
          transposes_S32x32x32x256_S32x32x32x256_2_0_1_3 := by
  after_results_simp
  simp only [ofBuf_toBuf, ofBuf_main_v0, toBuf_main_v1]
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-! ## The run -/

/-- On every device, for any float values, from any memory with zero counters: every weakly fair execution of
    @main terminates with the result buffer at the second transpose of `refArr` of the first transpose of the
    first argument and of the second argument, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = transpose S32x32x32x256 [2, 0, 1, 3]
              (refArr (transpose S32x32x32x256 [1, 2, 0, 3] (m ((c.tc : Thread nD τ).loc main_arg0)) transposes_S32x32x32x256_S32x32x32x256_1_2_0_3)
                (m ((c.tc : Thread nD τ).loc main_arg1)))
              transposes_S32x32x32x256_S32x32x32x256_2_0_1_3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (out_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.Hand

end
-- ==== Proof.RefRead.lean ====
/-
  The reference's array term read at one element.

  Element (v, h, b, s) of the term between @main's two transposes depends on ONE row of the transposed input,
  xT(v, h, b, ·), and ONE column of the accumulators, acc(v, h, ·, s): it is the row-level value `refRow` of the
  two. Each array operation that is not elementwise is read at an index by a lemma of its own — the broadcasts move
  the index onto the operand's axes, a reduction over one axis is the fold or the sum over that axis's coordinates,
  the contraction the sum over its one contracted axis — and the elementwise ones compute.
-/
import proofs.«154636_j42442866819598_1_alg».proof.Proof.RefRun
import proofs.«154636_j42442866819598_1_alg».proof.Proof.RowSpec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx Cert.RowSpec

/-! ## The broadcasts at an index -/

/-- The scalar broadcast to rank 3 reads the scalar's one element. -/
theorem bcast_scalar_apply {α : Type} (y : S_.Idx → α) (v h : Fin 32) (s : Fin 256) :
    broadcastInDim S32x32x256 ![] bcast_S_S32x32x256 y (ix3 v h s) = y ix0 :=
  broadcastInDim_apply _ _ y (ix3 v h s) ix0 (fun a => a.elim0)

/-- Rank 3 to rank 4 with a unit axis 2 inserted: the unit coordinate is dropped. -/
theorem bcast_unit2_apply {α : Type} (y : S32x32x256.Idx → α) (v h : Fin 32) (s : Fin 256) :
    broadcastInDim S32x32x1x256 ![0, 1, 3] bcast_S32x32x256_S32x32x1x256_0_1_3 y (ix4 v h (0 : Fin 1) s) = y (ix3 v h s) :=
  broadcastInDim_apply _ _ y (ix4 v h (0 : Fin 1) s) (ix3 v h s) (fun a => by
    match a with
    | ⟨0, _⟩ => rfl
    | ⟨1, _⟩ => rfl
    | ⟨2, _⟩ => rfl)

/-- The unit axis 2 stretched to 256: the coordinate on it is forgotten. -/
theorem bcast_stretch2_apply {α : Type} (y : S32x32x1x256.Idx → α) (v h : Fin 32) (k s : Fin 256) :
    broadcastInDim S32x32x256x256 ![0, 1, 2, 3] bcast_S32x32x1x256_S32x32x256x256_0_1_2_3 y (ix4 v h k s)
      = y (ix4 v h (0 : Fin 1) s) :=
  broadcastInDim_apply _ _ y (ix4 v h k s) (ix4 v h (0 : Fin 1) s) (fun a => by
    match a with
    | ⟨0, _⟩ => rfl
    | ⟨1, _⟩ => rfl
    | ⟨2, _⟩ => rfl
    | ⟨3, _⟩ => rfl)

/-- The unit axis 2 stretched to 32: the coordinate on it is forgotten. -/
theorem bcast_stretch2b_apply {α : Type} (y : S32x32x1x256.Idx → α) (v h b : Fin 32) (s : Fin 256) :
    broadcastInDim S32x32x32x256 ![0, 1, 2, 3] bcast_S32x32x1x256_S32x32x32x256_0_1_2_3 y (ix4 v h b s)
      = y (ix4 v h (0 : Fin 1) s) :=
  broadcastInDim_apply _ _ y (ix4 v h b s) (ix4 v h (0 : Fin 1) s) (fun a => by
    match a with
    | ⟨0, _⟩ => rfl
    | ⟨1, _⟩ => rfl
    | ⟨2, _⟩ => rfl
    | ⟨3, _⟩ => rfl)

/-- Rank 3 to rank 4 with a unit axis 3 appended: the unit coordinate is dropped. -/
theorem bcast_unit3_apply {α : Type} (y : S32x32x32.Idx → α) (v h b : Fin 32) :
    broadcastInDim S32x32x32x1 ![0, 1, 2] bcast_S32x32x32_S32x32x32x1_0_1_2 y (ix4 v h b (0 : Fin 1)) = y (ix3 v h b) :=
  broadcastInDim_apply _ _ y (ix4 v h b (0 : Fin 1)) (ix3 v h b) (fun a => by
    match a with
    | ⟨0, _⟩ => rfl
    | ⟨1, _⟩ => rfl
    | ⟨2, _⟩ => rfl)

/-- The unit axis 3 stretched to 256: the coordinate on it is forgotten. -/
theorem bcast_stretch3_apply {α : Type} (y : S32x32x32x1.Idx → α) (v h b : Fin 32) (s : Fin 256) :
    broadcastInDim S32x32x32x256 ![0, 1, 2, 3] bcast_S32x32x32x1_S32x32x32x256_0_1_2_3 y (ix4 v h b s)
      = y (ix4 v h b (0 : Fin 1)) :=
  broadcastInDim_apply _ _ y (ix4 v h b s) (ix4 v h b (0 : Fin 1)) (fun a => by
    match a with
    | ⟨0, _⟩ => rfl
    | ⟨1, _⟩ => rfl
    | ⟨2, _⟩ => rfl
    | ⟨3, _⟩ => rfl)

/-! ## The reductions at an index -/

/-- The maximum over axis 2, from −∞, at (v, h, s): the maximum of the column (v, h, ·, s). -/
theorem reduceMax2_apply (l : FVec Ideal S32x32x256x256 .f32) (v h : Fin 32) (s : Fin 256) :
    Host.reduce FloatOps.maximumf l (constant (F := Ideal) S_ .f32 0xFF800000#32) reducesTo_S32x32x256x256_S32x32x256_d2 h_S_
        (ix3 v h s)
      = rowMax fun k => l (ix4 v h k s) := by
  have hR : S32x32x256x256.Reduces [2] S32x32x256 := by decide
  refine (Host.reduce_eq_fold_single FloatOps.maximumf l _ reducesTo_S32x32x256x256_S32x32x256_d2 hR h_S_ (ix3 v h s)).trans ?_
  show (Finset.univ : Finset (Fin 256)).fold max negInf (fun k => l (hR.lift (ix3 v h s) k))
    = (Finset.univ : Finset (Fin 256)).fold max negInf fun k => l (ix4 v h k s)
  refine congrArg ((Finset.univ : Finset (Fin 256)).fold max negInf) (funext fun k => congrArg l ?_)
  exact funext fun a => Fin.ext (by
    match a with
    | ⟨0, _⟩ => rfl
    | ⟨1, _⟩ => rfl
    | ⟨2, _⟩ => rfl
    | ⟨3, _⟩ => rfl)

/-- The maximum over axis 3, from −∞, at (v, h, b): the maximum of the row (v, h, b, ·). -/
theorem reduceMax3_apply (x : FVec Ideal S32x32x32x256 .f32) (v h b : Fin 32) :
    Host.reduce FloatOps.maximumf x (constant (F := Ideal) S_ .f32 0xFF800000#32) reducesTo_S32x32x32x256_S32x32x32_d3 h_S_
        (ix3 v h b)
      = rowMax fun k => x (ix4 v h b k) := by
  have hR : S32x32x32x256.Reduces [3] S32x32x32 := by decide
  refine (Host.reduce_eq_fold_single FloatOps.maximumf x _ reducesTo_S32x32x32x256_S32x32x32_d3 hR h_S_ (ix3 v h b)).trans ?_
  show (Finset.univ : Finset (Fin 256)).fold max negInf (fun k => x (hR.lift (ix3 v h b) k))
    = (Finset.univ : Finset (Fin 256)).fold max negInf fun k => x (ix4 v h b k)
  refine congrArg ((Finset.univ : Finset (Fin 256)).fold max negInf) (funext fun k => congrArg x ?_)
  exact funext fun a => Fin.ext (by
    match a with
    | ⟨0, _⟩ => rfl
    | ⟨1, _⟩ => rfl
    | ⟨2, _⟩ => rfl
    | ⟨3, _⟩ => rfl)

/-- The host's sum over axis 2, from the word of zero, at (v, h, s): zero plus the sum of the column (v, h, ·, s). -/
theorem reduceAdd2_apply (y : FVec Ideal S32x32x256x256 .f32) (v h : Fin 32) (s : Fin 256) :
    Host.reduceAdd y (constant (F := Ideal) S_ .f32 0x00000000#32) reducesTo_S32x32x256x256_S32x32x256_d2 h_S_ (ix3 v h s)
      = zeroW + ∑ k : Fin 256, y (ix4 v h k s) := by
  have hR : S32x32x256x256.Reduces [2] S32x32x256 := by decide
  simp only [Host.reduceAdd, Ideal.hostReduceAdd_def]
  refine (Ideal.hostReduceAdd_single reducesTo_S32x32x256x256_S32x32x256_d2 hR y _ (ix3 v h s)).trans ?_
  show zeroW + ∑ k : Fin 256, y (hR.lift (ix3 v h s) k) = zeroW + ∑ k : Fin 256, y (ix4 v h k s)
  refine congrArg (zeroW + ·) (Finset.sum_congr rfl fun k _ => congrArg y ?_)
  exact funext fun a => Fin.ext (by
    match a with
    | ⟨0, _⟩ => rfl
    | ⟨1, _⟩ => rfl
    | ⟨2, _⟩ => rfl
    | ⟨3, _⟩ => rfl)

/-! ## The contraction at an index -/

/-- The left operand's index at result index (v, h, b, s) and contracted coordinate k is (v, h, b, k): the two
    batch axes and the free axis read the result index, the contracted axis the coordinate. -/
theorem dot_lhsIdx (v h b : Fin 32) (s k : Fin 256) :
    dot_S32x32x32x256_S32x32x256x256_S32x32x32x256_3_2_2_3_01_01.lhsIdx (ix4 v h b s) ((contrEquiv1 dot_S32x32x32x256_S32x32x256x256_S32x32x32x256_3_2_2_3_01_01 256 rfl rfl).symm k) = ix4 v h b k := by
  have h0 : (dot_S32x32x32x256_S32x32x256x256_S32x32x32x256_3_2_2_3_01_01.lhsIdx (ix4 v h b s) ((contrEquiv1 dot_S32x32x32x256_S32x32x256x256_S32x32x32x256_3_2_2_3_01_01 256 rfl rfl).symm k) (0 : Fin 4)).val = v.val := by
    unfold DotDims.lhsIdx
    rw [dif_pos (show (0 : Fin 4) ∈ dot_S32x32x32x256_S32x32x256x256_S32x32x32x256_3_2_2_3_01_01.lhsBatch by decide)]
    rfl
  have h1 : (dot_S32x32x32x256_S32x32x256x256_S32x32x32x256_3_2_2_3_01_01.lhsIdx (ix4 v h b s) ((contrEquiv1 dot_S32x32x32x256_S32x32x256x256_S32x32x32x256_3_2_2_3_01_01 256 rfl rfl).symm k) (1 : Fin 4)).val = h.val := by
    unfold DotDims.lhsIdx
    rw [dif_pos (show (1 : Fin 4) ∈ dot_S32x32x32x256_S32x32x256x256_S32x32x32x256_3_2_2_3_01_01.lhsBatch by decide)]
    rfl
  have h2 : (dot_S32x32x32x256_S32x32x256x256_S32x32x32x256_3_2_2_3_01_01.lhsIdx (ix4 v h b s) ((contrEquiv1 dot_S32x32x32x256_S32x32x256x256_S32x32x32x256_3_2_2_3_01_01 256 rfl rfl).symm k) (2 : Fin 4)).val = b.val := by
    unfold DotDims.lhsIdx
    rw [dif_neg (show (2 : Fin 4) ∉ dot_S32x32x32x256_S32x32x256x256_S32x32x32x256_3_2_2_3_01_01.lhsBatch by decide), dif_pos (show (2 : Fin 4) ∈ dot_S32x32x32x256_S32x32x256x256_S32x32x32x256_3_2_2_3_01_01.lhsNonContracting by decide)]
    rfl
  have h3 : (dot_S32x32x32x256_S32x32x256x256_S32x32x32x256_3_2_2_3_01_01.lhsIdx (ix4 v h b s) ((contrEquiv1 dot_S32x32x32x256_S32x32x256x256_S32x32x32x256_3_2_2_3_01_01 256 rfl rfl).symm k) (3 : Fin 4)).val = k.val :=
    (dot_S32x32x32x256_S32x32x256x256_S32x32x32x256_3_2_2_3_01_01.lhsIdx_val_of_single rfl (ix4 v h b s) _).trans (contrEquiv1_symm_val dot_S32x32x32x256_S32x32x256x256_S32x32x32x256_3_2_2_3_01_01 256 rfl rfl k)
  exact funext fun a => Fin.ext (by
    match a with
    | ⟨0, _⟩ => exact h0
    | ⟨1, _⟩ => exact h1
    | ⟨2, _⟩ => exact h2
    | ⟨3, _⟩ => exact h3)

/-- The right operand's index there is (v, h, k, s). -/
theorem dot_rhsIdx (v h b : Fin 32) (s k : Fin 256) :
    dot_S32x32x32x256_S32x32x256x256_S32x32x32x256_3_2_2_3_01_01.rhsIdx (ix4 v h b s) ((contrEquiv1 dot_S32x32x32x256_S32x32x256x256_S32x32x32x256_3_2_2_3_01_01 256 rfl rfl).symm k) = ix4 v h k s := by
  have h0 : (dot_S32x32x32x256_S32x32x256x256_S32x32x32x256_3_2_2_3_01_01.rhsIdx (ix4 v h b s) ((contrEquiv1 dot_S32x32x32x256_S32x32x256x256_S32x32x32x256_3_2_2_3_01_01 256 rfl rfl).symm k) (0 : Fin 4)).val = v.val := by
    unfold DotDims.rhsIdx
    rw [dif_pos (show (0 : Fin 4) ∈ dot_S32x32x32x256_S32x32x256x256_S32x32x32x256_3_2_2_3_01_01.rhsBatch by decide)]
    rfl
  have h1 : (dot_S32x32x32x256_S32x32x256x256_S32x32x32x256_3_2_2_3_01_01.rhsIdx (ix4 v h b s) ((contrEquiv1 dot_S32x32x32x256_S32x32x256x256_S32x32x32x256_3_2_2_3_01_01 256 rfl rfl).symm k) (1 : Fin 4)).val = h.val := by
    unfold DotDims.rhsIdx
    rw [dif_pos (show (1 : Fin 4) ∈ dot_S32x32x32x256_S32x32x256x256_S32x32x32x256_3_2_2_3_01_01.rhsBatch by decide)]
    rfl
  have h2 : (dot_S32x32x32x256_S32x32x256x256_S32x32x32x256_3_2_2_3_01_01.rhsIdx (ix4 v h b s) ((contrEquiv1 dot_S32x32x32x256_S32x32x256x256_S32x32x32x256_3_2_2_3_01_01 256 rfl rfl).symm k) (2 : Fin 4)).val = k.val :=
    (dot_S32x32x32x256_S32x32x256x256_S32x32x32x256_3_2_2_3_01_01.rhsIdx_val_of_single rfl (ix4 v h b s) _).trans (contrEquiv1_symm_val dot_S32x32x32x256_S32x32x256x256_S32x32x32x256_3_2_2_3_01_01 256 rfl rfl k)
  have h3 : (dot_S32x32x32x256_S32x32x256x256_S32x32x32x256_3_2_2_3_01_01.rhsIdx (ix4 v h b s) ((contrEquiv1 dot_S32x32x32x256_S32x32x256x256_S32x32x32x256_3_2_2_3_01_01 256 rfl rfl).symm k) (3 : Fin 4)).val = s.val := by
    unfold DotDims.rhsIdx
    rw [dif_neg (show (3 : Fin 4) ∉ dot_S32x32x32x256_S32x32x256x256_S32x32x32x256_3_2_2_3_01_01.rhsBatch by decide), dif_pos (show (3 : Fin 4) ∈ dot_S32x32x32x256_S32x32x256x256_S32x32x32x256_3_2_2_3_01_01.rhsNonContracting by decide)]
    rfl
  exact funext fun a => Fin.ext (by
    match a with
    | ⟨0, _⟩ => exact h0
    | ⟨1, _⟩ => exact h1
    | ⟨2, _⟩ => exact h2
    | ⟨3, _⟩ => exact h3)

/-- The batched contraction at (v, h, b, s): the sum over the contracted coordinate k of the left operand at
    (v, h, b, k) times the right operand at (v, h, k, s). -/
theorem dot_apply (L : FVec Ideal S32x32x32x256 .f32) (R : FVec Ideal S32x32x256x256 .f32) (v h b : Fin 32) (s : Fin 256) :
    Host.dotGeneral (F := Ideal) dot_S32x32x32x256_S32x32x256x256_S32x32x32x256_3_2_2_3_01_01 none L R (ix4 v h b s) = ∑ k : Fin 256, L (ix4 v h b k) * R (ix4 v h k s) := by
  simp only [Host.dotGeneral]
  rw [Ideal.dotGeneral_apply, ← Equiv.sum_comp (contrEquiv1 dot_S32x32x32x256_S32x32x256x256_S32x32x32x256_3_2_2_3_01_01 256 rfl rfl).symm]
  refine Finset.sum_congr rfl fun k _ => ?_
  rw [dot_lhsIdx, dot_rhsIdx]

/-! ## The log-softmax at an index -/

/-- The joined maximum at (v, h, s): −∞ joined with the maximum of the column (v, h, ·, s). -/
theorem lsmMax_apply (l : FVec Ideal S32x32x256x256 .f32) (v h : Fin 32) (s : Fin 256) :
    lsmMax l (ix3 v h s) = max negInf (rowMax fun k => l (ix4 v h k s)) := by
  unfold lsmMax
  rw [maximumf_apply, bcast_scalar_apply, reduceMax2_apply]
  rfl

/-- The shifted array at (v, h, k, s): the element minus its column's joined maximum. -/
theorem lsmShift_apply (l : FVec Ideal S32x32x256x256 .f32) (v h : Fin 32) (k s : Fin 256) :
    lsmShift l (ix4 v h k s) = l (ix4 v h k s) - max negInf (rowMax fun j => l (ix4 v h j s)) := by
  unfold lsmShift
  rw [subf_apply, bcast_stretch2_apply, bcast_unit2_apply, lsmMax_apply]

/-- The logarithm of the column's sum of exponentials at (v, h, 0, s). -/
theorem lsmLogSum_apply (l : FVec Ideal S32x32x256x256 .f32) (v h : Fin 32) (s : Fin 256) :
    lsmLogSum l (ix4 v h (0 : Fin 1) s)
      = Ideal.log (zeroW + ∑ j : Fin 256, Ideal.exp (l (ix4 v h j s) - max negInf (rowMax fun j => l (ix4 v h j s)))) := by
  unfold lsmLogSum
  show Ideal.log (broadcastInDim S32x32x1x256 ![0, 1, 3] bcast_S32x32x256_S32x32x1x256_0_1_3
      (Host.reduceAdd (Host.exp (lsmShift l)) (constant (F := Ideal) S_ .f32 0x00000000#32)
        reducesTo_S32x32x256x256_S32x32x256_d2 h_S_) (ix4 v h (0 : Fin 1) s)) = _
  rw [bcast_unit2_apply, reduceAdd2_apply]
  refine congrArg (fun t => Ideal.log (zeroW + t)) (Finset.sum_congr rfl fun j _ => ?_)
  show Ideal.exp (lsmShift l (ix4 v h j s)) = _
  rw [lsmShift_apply]

/-- The log-softmax at (v, h, k, s) is the row-level log-softmax of the column (v, h, ·, s), at k. -/
theorem logSoftmaxArr_apply (l : FVec Ideal S32x32x256x256 .f32) (v h : Fin 32) (k s : Fin 256) :
    logSoftmaxArr l (ix4 v h k s) = logSoftmaxRow (fun j => l (ix4 v h j s)) k := by
  unfold logSoftmaxArr logSoftmaxRow
  rw [subf_apply, lsmShift_apply, bcast_stretch2_apply, lsmLogSum_apply]

/-! ## The log-matmul at an index -/

/-- The kept maximum of the input at (v, h, b, 0): the maximum of the row (v, h, b, ·). -/
theorem xMax_apply (x : FVec Ideal S32x32x32x256 .f32) (v h b : Fin 32) :
    xMax x (ix4 v h b (0 : Fin 1)) = rowMax fun k => x (ix4 v h b k) := by
  unfold xMax
  rw [bcast_unit3_apply, reduceMax3_apply]

/-- The kept maximum of the log-weights at (v, h, 0, s): the maximum of the column (v, h, ·, s). -/
theorem wMax_apply (lw : FVec Ideal S32x32x256x256 .f32) (v h : Fin 32) (s : Fin 256) :
    wMax lw (ix4 v h (0 : Fin 1) s) = rowMax fun k => lw (ix4 v h k s) := by
  unfold wMax
  rw [bcast_unit2_apply, reduceMax2_apply]

/-- The stable log-matmul at (v, h, b, s), from the row (v, h, b, ·) of the input and the column (v, h, ·, s) of the
    log-weights. -/
theorem logMatmul_apply (x : FVec Ideal S32x32x32x256 .f32) (lw : FVec Ideal S32x32x256x256 .f32) (v h b : Fin 32)
    (s : Fin 256) :
    logMatmul x lw (ix4 v h b s)
      = Ideal.log (∑ k : Fin 256, Ideal.exp (x (ix4 v h b k) - rowMax fun j => x (ix4 v h b j))
            * Ideal.exp (lw (ix4 v h k s) - rowMax fun j => lw (ix4 v h j s)))
          + (rowMax fun j => x (ix4 v h b j)) + rowMax fun j => lw (ix4 v h j s) := by
  unfold logMatmul
  rw [addf_apply, addf_apply, bcast_stretch3_apply, xMax_apply, bcast_stretch2b_apply, wMax_apply]
  show Ideal.log (Host.dotGeneral (F := Ideal) dot_S32x32x32x256_S32x32x256x256_S32x32x32x256_3_2_2_3_01_01 none _ _ (ix4 v h b s))
      + _ + _ = _
  rw [dot_apply]
  refine congrArg (fun t => Ideal.log t + (rowMax fun j => x (ix4 v h b j)) + rowMax fun j => lw (ix4 v h j s))
    (Finset.sum_congr rfl fun k _ => ?_)
  show Ideal.exp (x (ix4 v h b k)
        - broadcastInDim S32x32x32x256 ![0, 1, 2, 3] bcast_S32x32x32x1_S32x32x32x256_0_1_2_3 (xMax x) (ix4 v h b k))
      * Ideal.exp (lw (ix4 v h k s)
        - broadcastInDim S32x32x256x256 ![0, 1, 2, 3] bcast_S32x32x1x256_S32x32x256x256_0_1_2_3 (wMax lw) (ix4 v h k s)) = _
  rw [bcast_stretch3_apply, xMax_apply, bcast_stretch2_apply, wMax_apply]

/-! ## The whole term at an index -/

/-- Element (v, h, b, s) of the reference's term is the row-level value of the row xT(v, h, b, ·) and the column
    acc(v, h, ·, s). -/
theorem refArr_apply (xT : FVec Ideal S32x32x32x256 .f32) (acc : FVec Ideal S32x32x256x256 .f32) (v h b : Fin 32)
    (s : Fin 256) :
    refArr (F := Ideal) xT acc (ValueIdx.ix4 v h b s)
      = Cert.RowSpec.refRow (fun k => xT (ValueIdx.ix4 v h b k)) (fun k => acc (ValueIdx.ix4 v h k s)) := by
  have hw : ∀ k : Fin 256, logSoftmaxArr (Host.log acc) (ix4 v h k s)
      = logSoftmaxRow (fun j => Ideal.log (acc (ix4 v h j s))) k :=
    fun k => logSoftmaxArr_apply (Host.log acc) v h k s
  unfold refArr refRow
  rw [logMatmul_apply]
  simp only [hw]

end Cert.ReferenceIdeal.Hand

end
-- ==== Proof.RowLaw.lean ====
/-
  The row law. On a row of finite reals and a column of positive reals, the kernel's row value and the
  reference's row value (module RowSpec) are the same extended real.

  Write the column as positive reals a_k, attaining their maximum c at some index, with sum S > 0.

  * A maximum folded from -oo over reals that attain their maximum at one index is the value there.
  * The logarithm is monotone on the positives, so max_k log a_k = log c, and joining once more with -oo
    changes nothing. Hence exp (log a_j - log c) = a_j / c, the sum 0 + sum_j a_j / c is S / c, and
    log (S / c) = log S - log c. The log-softmax of log a is therefore w_k = log a_k - log S.
  * w attains its maximum at the same index: max w = log c - log S, which is the kernel's shift
    log (max a) - log (sum a).
  * w_k - max w = log a_k - log c, so exp (w_k - max w) = a_k / c, the kernel's weight a_k / max a.

  The two sums then agree term by term, whatever the row x is; their common value is never needed.
-/
import proofs.«154636_j42442866819598_1_alg».proof.Proof.RowSpec

noncomputable section

namespace Cert.RowSpec

open Idealize.ShloMosaic

/-- The word the maxima start from denotes -oo. -/
theorem negInf_eq_bot : negInf = ⊥ := by simp [negInf, Ideal.ofBits, Ideal.ieee]

/-- The word the sum of exponentials starts from denotes 0. -/
theorem zeroW_eq_zero : zeroW = 0 := Ideal.ofBits_zero_f32

/-- A finite sum of reals, read in the extended reals, is the real sum. -/
theorem coe_sum {I : Type} (s : Finset I) (f : I → ℝ) :
    (∑ k ∈ s, (f k : EReal)) = ((∑ k ∈ s, f k : ℝ) : EReal) := by
  classical
  refine Finset.induction_on s ?_ ?_
  · simp
  · intro a s ha ih
    rw [Finset.sum_insert ha, Finset.sum_insert ha, ih, EReal.coe_add]

/-- The logarithm of a positive real is the real logarithm. -/
theorem log_coe_pos {r : ℝ} (h : 0 < r) : Ideal.log (r : EReal) = (Real.log r : EReal) := by
  rw [Ideal.log_coe, if_neg (not_le.2 h)]

/-- The folded maximum of reals that attain their maximum at k0 is the value at k0. -/
theorem rowMax_coe (f : Fin 256 → ℝ) (k0 : Fin 256) (h : ∀ k, f k ≤ f k0) :
    rowMax (fun k => (f k : EReal)) = (f k0 : EReal) := by
  unfold rowMax
  apply le_antisymm
  · refine (Finset.fold_max_le _).2 ⟨?_, fun k _ => EReal.coe_le_coe_iff.2 (h k)⟩
    rw [negInf_eq_bot]; exact bot_le
  · exact (Finset.le_fold_max _).2 (Or.inr ⟨k0, Finset.mem_univ _, le_rfl⟩)

/-- The log-softmax of reals l that attain their maximum at k0:
    l_k - l_k0 - log (sum_j exp (l_j - l_k0)), a real. -/
theorem logSoftmaxRow_coe (lr : Fin 256 → ℝ) (k0 : Fin 256) (h : ∀ k, lr k ≤ lr k0) (k : Fin 256) :
    logSoftmaxRow (fun j => (lr j : EReal)) k
      = ((lr k - lr k0 - Real.log (∑ j, Real.exp (lr j - lr k0)) : ℝ) : EReal) := by
  have hS : 0 < ∑ j : Fin 256, Real.exp (lr j - lr k0) :=
    Finset.sum_pos (fun j _ => Real.exp_pos _) Finset.univ_nonempty
  have hmm : max negInf (rowMax fun j => (lr j : EReal)) = (lr k0 : EReal) := by
    rw [rowMax_coe lr k0 h, negInf_eq_bot]; exact max_eq_right bot_le
  have hsum : zeroW + ∑ j : Fin 256, Ideal.exp ((lr j : EReal) - (lr k0 : EReal))
      = ((∑ j, Real.exp (lr j - lr k0) : ℝ) : EReal) := by
    rw [zeroW_eq_zero, zero_add, ← coe_sum]
    refine Finset.sum_congr rfl fun j _ => ?_
    rw [← EReal.coe_sub, Ideal.exp_coe]
  unfold logSoftmaxRow
  beta_reduce
  rw [hmm, hsum, log_coe_pos hS, ← EReal.coe_sub, ← EReal.coe_sub]

section Column

variable (ar : Fin 256 → ℝ) (hpos : ∀ k, 0 < ar k) (k0 : Fin 256) (hmax : ∀ k, ar k ≤ ar k0)

include hpos in
/-- The sum of a positive column is positive. -/
theorem sum_col_pos : 0 < ∑ j, ar j :=
  Finset.sum_pos (fun j _ => hpos j) Finset.univ_nonempty

include hpos hmax in
/-- The log-softmax of the logarithms of a positive column: w_k = log a_k - log S. -/
theorem logSoftmaxRow_log (k : Fin 256) :
    logSoftmaxRow (fun j => Ideal.log ((ar j : ℝ) : EReal)) k
      = ((Real.log (ar k) - Real.log (∑ j, ar j) : ℝ) : EReal) := by
  have hc : 0 < ar k0 := hpos k0
  have hS : 0 < ∑ j, ar j := sum_col_pos ar hpos
  have hl : (fun j => Ideal.log ((ar j : ℝ) : EReal)) = fun j => ((Real.log (ar j) : ℝ) : EReal) :=
    funext fun j => log_coe_pos (hpos j)
  have hsum : ∑ j, Real.exp (Real.log (ar j) - Real.log (ar k0)) = (∑ j, ar j) / ar k0 := by
    rw [Finset.sum_div]
    refine Finset.sum_congr rfl fun j _ => ?_
    rw [Real.exp_sub, Real.exp_log (hpos j), Real.exp_log hc]
  rw [hl, logSoftmaxRow_coe (fun j => Real.log (ar j)) k0
    (fun j => Real.log_le_log (hpos j) (hmax j)) k]
  refine congrArg Real.toEReal ?_
  beta_reduce
  rw [hsum, Real.log_div hS.ne' hc.ne']
  ring

include hpos hmax in
/-- Its maximum: max w = log c - log S. -/
theorem rowMax_logSoftmaxRow_log :
    rowMax (logSoftmaxRow fun j => Ideal.log ((ar j : ℝ) : EReal))
      = ((Real.log (ar k0) - Real.log (∑ j, ar j) : ℝ) : EReal) := by
  have hw : (logSoftmaxRow fun j => Ideal.log ((ar j : ℝ) : EReal))
      = fun k => ((Real.log (ar k) - Real.log (∑ j, ar j) : ℝ) : EReal) :=
    funext (logSoftmaxRow_log ar hpos k0 hmax)
  rw [hw]
  exact rowMax_coe (fun k => Real.log (ar k) - Real.log (∑ j, ar j)) k0
    (fun k => sub_le_sub_right (Real.log_le_log (hpos k) (hmax k)) _)

include hpos in
/-- The kernel's weight a_k / c is the exponential of w_k - max w. -/
theorem div_eq_exp_shift (k : Fin 256) :
    Ideal.div ((ar k : ℝ) : EReal) ((ar k0 : ℝ) : EReal)
      = Ideal.exp (((Real.log (ar k) - Real.log (∑ j, ar j) : ℝ) : EReal)
          - ((Real.log (ar k0) - Real.log (∑ j, ar j) : ℝ) : EReal)) := by
  have hc : 0 < ar k0 := hpos k0
  have hr : Real.log (ar k) - Real.log (∑ j, ar j) - (Real.log (ar k0) - Real.log (∑ j, ar j))
      = Real.log (ar k) - Real.log (ar k0) := by ring
  rw [Ideal.div_coe hc.ne', ← EReal.coe_mul, ← EReal.coe_sub, Ideal.exp_coe, hr, Real.exp_sub,
    Real.exp_log (hpos k), Real.exp_log hc, mul_one_div]

include hpos in
/-- The kernel's shift log c - log S, as a real. -/
theorem log_sub_log_sum :
    Ideal.log ((ar k0 : ℝ) : EReal) - Ideal.log (∑ k, ((ar k : ℝ) : EReal))
      = ((Real.log (ar k0) - Real.log (∑ j, ar j) : ℝ) : EReal) := by
  rw [log_coe_pos (hpos k0), coe_sum, log_coe_pos (sum_col_pos ar hpos), ← EReal.coe_sub]

include hpos hmax in
/-- The row law for a column given as positive reals with their maximum at k0; the row is arbitrary. -/
theorem kernelRow_eq_refRow_coe (x : Fin 256 → EReal) :
    kernelRow x (fun k => ((ar k : ℝ) : EReal)) = refRow x (fun k => ((ar k : ℝ) : EReal)) := by
  have hA : rowMax (fun k => ((ar k : ℝ) : EReal)) = ((ar k0 : ℝ) : EReal) := rowMax_coe ar k0 hmax
  have hW := rowMax_logSoftmaxRow_log ar hpos k0 hmax
  have hterms : (∑ k : Fin 256, Ideal.exp (x k - rowMax x)
        * Ideal.div ((ar k : ℝ) : EReal) ((ar k0 : ℝ) : EReal))
      = ∑ k : Fin 256, Ideal.exp (x k - rowMax x)
        * Ideal.exp (logSoftmaxRow (fun j => Ideal.log ((ar j : ℝ) : EReal)) k
            - ((Real.log (ar k0) - Real.log (∑ j, ar j) : ℝ) : EReal)) := by
    refine Finset.sum_congr rfl fun k _ => ?_
    rw [div_eq_exp_shift ar hpos k0 k, logSoftmaxRow_log ar hpos k0 hmax k]
  unfold kernelRow refRow
  beta_reduce
  rw [hA, hW, log_sub_log_sum ar hpos k0, hterms]

end Column

/-- The row law: for a row of finite reals and a column of positive reals the two row values agree. -/
theorem kernelRow_eq_refRow (x a : Fin 256 → EReal) (hx : ∀ k, ∃ r : ℝ, x k = (r : EReal))
    (ha : ∀ k, ∃ r : ℝ, 0 < r ∧ a k = (r : EReal)) : kernelRow x a = refRow x a := by
  have _hx := hx
  choose ar har using ha
  have hpos : ∀ k, 0 < ar k := fun k => (har k).1
  have hae : a = fun k => ((ar k : ℝ) : EReal) := funext fun k => (har k).2
  obtain ⟨k0, -, hk0⟩ := Finset.exists_max_image Finset.univ ar Finset.univ_nonempty
  rw [hae]
  exact kernelRow_eq_refRow_coe ar hpos k0 (fun k => hk0 k (Finset.mem_univ k)) x

end Cert.RowSpec

end
-- ==== Proof.Bridge.lean ====
/-
  The reshape bridge. The two scope axes (v, h), 32 x 32, are flattened into one axis g = 32 v + h of extent 1024 on
  the way into the region and unflattened on the way out. Flattening keeps the row-major position, so

  * a [32, 32, 32, 256] array read as [1024, 32, 256] has, at (32 v + h, b, k), the entry at (v, h, b, k);
  * a [32, 32, 256, 256] array read as [1024, 256, 256] has, at (32 v + h, k, s), the entry at (v, h, k, s);
  * a [1024, 32, 256] array read as [32, 32, 32, 256] has, at (v, h, b, s), the entry at (32 v + h, b, s).

  Hence the entry (v, h, b, s) of the unflattened region output is the kernel's row value of the row (v, h, b, .)
  and the column (v, h, ., s), which the row law identifies with the reference's row value.
-/
import proofs.«154636_j42442866819598_1_alg».proof.Proof.ArraySpec
import proofs.«154636_j42442866819598_1_alg».proof.Proof.RowLaw
import Idealize.ShloMosaic.Lib.Pipeline.Value
import Idealize.ShloMosaic.Lib.ValueIdx

noncomputable section

namespace Cert.ArraySpec

open Idealize.ShloMosaic Idealize.ShloMosaic.ValueIdx

/-- Scope x scope x batch x channel, and scope x scope x batch x out. -/
abbrev S4X : Shape := ⟨4, ![32, 32, 32, 256]⟩
/-- Scope x scope x channel x out. -/
abbrev S4A : Shape := ⟨4, ![32, 32, 256, 256]⟩

section Casts

variable {α : Type}

/-- Flattening the two leading axes of a [32, 32, 32, 256] array: position (32 v + h, b, k) holds entry (v, h, b, k). -/
theorem shapeCast_flatX_apply (x : S4X.Idx → α) (hc : S4X.ShapeCasts SX3) (v h b : Fin 32) (k : Fin 256)
    (g : Fin 1024) (hg : g.val = 32 * v.val + h.val) :
    shapeCast SX3 x hc (ix3 g b k) = x (ix4 v h b k) :=
  shapeCast_apply x hc _ _ (by
    rw [Shape.rowMajor_val_four, Shape.rowMajor_val_three]
    show ((v.val * 32 + h.val) * 32 + b.val) * 256 + k.val = (g.val * 32 + b.val) * 256 + k.val
    rw [hg]; omega)

/-- Flattening the two leading axes of a [32, 32, 256, 256] array: position (32 v + h, k, s) holds entry (v, h, k, s). -/
theorem shapeCast_flatA_apply (y : S4A.Idx → α) (hc : S4A.ShapeCasts SA3) (v h : Fin 32) (k s : Fin 256)
    (g : Fin 1024) (hg : g.val = 32 * v.val + h.val) :
    shapeCast SA3 y hc (ix3 g k s) = y (ix4 v h k s) :=
  shapeCast_apply y hc _ _ (by
    rw [Shape.rowMajor_val_four, Shape.rowMajor_val_three]
    show ((v.val * 32 + h.val) * 256 + k.val) * 256 + s.val = (g.val * 256 + k.val) * 256 + s.val
    rw [hg]; omega)

/-- Splitting the leading axis of a [1024, 32, 256] array: position (v, h, b, s) holds entry (32 v + h, b, s). -/
theorem shapeCast_unflatX_apply (z : SX3.Idx → α) (hc : SX3.ShapeCasts S4X) (v h b : Fin 32) (s : Fin 256)
    (g : Fin 1024) (hg : g.val = 32 * v.val + h.val) :
    shapeCast S4X z hc (ix4 v h b s) = z (ix3 g b s) :=
  shapeCast_apply z hc _ _ (by
    rw [Shape.rowMajor_val_three, Shape.rowMajor_val_four]
    show (g.val * 32 + b.val) * 256 + s.val = ((v.val * 32 + h.val) * 32 + b.val) * 256 + s.val
    rw [hg]; omega)

end Casts

/-- The unflattened region output of the flattened arrays is, entry by entry, the reference's row value. -/
theorem reshape_regionOut_eq (XT : S4X.Idx → EReal) (ACC : S4A.Idx → EReal)
    (hc1 : S4X.ShapeCasts SX3) (hc2 : S4A.ShapeCasts SA3) (hc3 : SX3.ShapeCasts S4X)
    (hx : ∀ i, ∃ r : ℝ, XT i = (r : EReal)) (ha : ∀ i, ∃ r : ℝ, 0 < r ∧ ACC i = (r : EReal))
    (R : S4X.Idx → EReal)
    (hR : ∀ (v h b : Fin 32) (s : Fin 256), R (ix4 v h b s) = RowSpec.refRow (fun k => XT (ix4 v h b k)) (fun k => ACC (ix4 v h k s))) :
    shapeCast S4X (regionOut (shapeCast SX3 XT hc1) (shapeCast SA3 ACC hc2)) hc3 = R := by
  funext j
  obtain ⟨v, h, b, s, rfl⟩ : ∃ (v h b : Fin 32) (s : Fin 256), j = ix4 v h b s :=
    ⟨j 0, j 1, j 2, j 3, eq_ix4 j⟩
  have hlt : 32 * v.val + h.val < 1024 := by omega
  rw [shapeCast_unflatX_apply _ hc3 v h b s ⟨32 * v.val + h.val, hlt⟩ rfl, regionOut_apply, hR v h b s]
  refine (congrArg₂ RowSpec.kernelRow
    (funext fun k => shapeCast_flatX_apply XT hc1 v h b k ⟨32 * v.val + h.val, hlt⟩ rfl)
    (funext fun k => shapeCast_flatA_apply ACC hc2 v h k s ⟨32 * v.val + h.val, hlt⟩ rfl)).trans ?_
  exact RowSpec.kernelRow_eq_refRow _ _ (fun k => hx _) (fun k => ha _)

end Cert.ArraySpec

end
-- ==== Proof.PreDecode.lean ====
/-
  THE PRECONDITION, READ BACK. The printed predicate is the conjunction of three "for all elements" statements, each a
  reduction by logical and over every axis into a result of one index: |x| < +inf at every element of the first
  argument, |acc| < +inf at every element of the second, and acc > 0 at every element of the second. Stated at the
  extended reals (absolute value max a (-a), the order's comparisons, the word 0x7F800000 the value +inf and the zero
  word the value 0), the predicate being 1 says: every element of the first argument is a real number, and every element of
  the second is a positive real number.
-/
import proofs.«154636_j42442866819598_1_alg».proof.Proof.Gen.Pre_finite_inputs
import Idealize.ShloMosaic.Lib.ReduceAll
import Idealize.ShloMosaic.Lib.ValueIdx
import Idealize.ShloMosaic.PureOps.Ideal.Laws

noncomputable section

namespace Cert.PreDecode

open Idealize.ShloMosaic Cert.Pre_finite_inputs

variable [Cert.Pre_finite_inputs.Facts]

/-- The rank-0 shape has one index. -/
instance subsingleton_S_ : Subsingleton S_.Idx := ⟨fun a b => funext fun d => d.elim0⟩

/-- The f32 word with all-ones exponent, zero fraction and sign bit clear is +inf. -/
theorem ofBits_inf_f32 : Ideal.ofBits .f32 0x7F800000#32 = ⊤ := by simp [Ideal.ofBits, Ideal.ieee]

/-- A one-bit word made from a boolean is 1 exactly when the boolean is true. -/
theorem ofBool_eq_one (b : Bool) : BitVec.ofBool b = 1#1 ↔ b = true := by cases b <;> decide

/-- An extended real whose absolute value max a (-a) is strictly below +inf is neither infinity: it is a real. -/
theorem real_of_abs_lt_top (a : EReal) (h : Ideal.cmp .olt (max a (-a)) ⊤ = 1#1) : ∃ r : ℝ, a = (r : EReal) := by
  unfold Ideal.cmp at h
  rw [ofBool_eq_one] at h
  simp only [decide_eq_true_eq] at h
  induction a using EReal.rec with
  | bot => simp at h
  | coe r => exact ⟨r, rfl⟩
  | top => simp at h

/-- "greater than zero" read back. -/
theorem pos_of_gt_zero (a : EReal) (h : Ideal.cmp .ogt a 0 = 1#1) : 0 < a := by
  unfold Ideal.cmp at h
  rw [ofBool_eq_one] at h
  simpa only [decide_eq_true_eq] using h

/-- The three conjuncts of the predicate, each at every element. -/
theorem decode (x : FVec Ideal S32x32x32x256 .f32) (acc : FVec Ideal S32x32x256x256 .f32)
    (h : Cert.Pre_finite_inputs.fn (F := Ideal) x acc = fun _ => 1#1) :
    (∀ i, Ideal.cmp .olt (max (x i) (-(x i))) ⊤ = 1#1) ∧ (∀ i, Ideal.cmp .olt (max (acc i) (-(acc i))) ⊤ = 1#1)
      ∧ (∀ i, Ideal.cmp .ogt (acc i) 0 = 1#1) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · have e := Host.reduce_andi_all _ _ _ _ _ h1 i
    rw [← ofBits_inf_f32]; exact e
  · have e := Host.reduce_andi_all _ _ _ _ _ h2 i
    rw [← ofBits_inf_f32]; exact e
  · have e := Host.reduce_andi_all _ _ _ _ _ h3 i
    rw [← Ideal.ofBits_zero_f32]; exact e

/-- Every element of the first argument is a real number. -/
theorem x_real (x : FVec Ideal S32x32x32x256 .f32) (acc : FVec Ideal S32x32x256x256 .f32)
    (h : Cert.Pre_finite_inputs.fn (F := Ideal) x acc = fun _ => 1#1) (i : S32x32x32x256.Idx) : ∃ r : ℝ, x i = (r : EReal) :=
  real_of_abs_lt_top (x i) ((decode x acc h).1 i)

/-- Every element of the second argument is a positive real number. -/
theorem acc_pos (x : FVec Ideal S32x32x32x256 .f32) (acc : FVec Ideal S32x32x256x256 .f32)
    (h : Cert.Pre_finite_inputs.fn (F := Ideal) x acc = fun _ => 1#1) (i : S32x32x256x256.Idx) : ∃ r : ℝ, 0 < r ∧ acc i = (r : EReal) := by
  obtain ⟨r, hr⟩ := real_of_abs_lt_top (acc i) ((decode x acc h).2.1 i)
  have hp := pos_of_gt_zero (acc i) ((decode x acc h).2.2 i)
  rw [hr] at hp
  exact ⟨r, EReal.coe_pos.1 hp, hr⟩

end Cert.PreDecode

end
-- ==== Proof.lean ====
/-
  Both programs compute, for every scope (v, h), batch entry b and output s,

      out(b, v, h, s) = log ∑ₖ exp (x(b,v,h,k) + w(v,h,k,s)),   w = log-softmax over k of log accumulators(v,h,·,s),

  each in a numerically stable arrangement of its own. The reference forms w explicitly, shifts x by its row
  maximum and w by its column maximum, multiplies the exponentials, and adds the two maxima back. The kernel never
  forms log accumulators: it divides each column of the accumulators by its maximum (which IS exp (w − max w),
  because exp (log a − log max a) = a / max a and the log-softmax's own normaliser cancels), and adds back
  log (max a) − log (∑ a) (which IS max w, because log is monotone and the normaliser is log (∑ a / max a)).
  These identities need every accumulator to be a POSITIVE real: the precondition says so (where an accumulator is
  negative the reference's logarithm has no value and the two arrangements part ways), and that every entry of x is
  finite. On the extended reals the two arrangements are then one value, entry by entry (`RowSpec`, `RowLaw`).

  The rest is layout: the kernel flattens the two scope axes into one of 1024, runs 32 grid points of 32 scopes
  each whose blocks tile the array, and splits the scopes back; both programs begin with the same transpose of x
  to scopes-first order and end with the same transpose to batch-first order, which are never opened.
  `preserves` has nothing to state: the idealized kernel is the kernel's own text read on the extended reals.
-/
import proofs.«154636_j42442866819598_1_alg».proof.Defs
import proofs.«154636_j42442866819598_1_alg».proof.Proof.Gen.Kernel
import proofs.«154636_j42442866819598_1_alg».proof.Proof.Gen.Kernel.Skeleton
import proofs.«154636_j42442866819598_1_alg».proof.Proof.Gen.Kernel.Launch
import proofs.«154636_j42442866819598_1_alg».proof.Proof.Gen.Kernel.Points
import proofs.«154636_j42442866819598_1_alg».proof.Proof.Gen.Kernel.Frame
import proofs.«154636_j42442866819598_1_alg».proof.Proof.Gen.KernelIdeal
import proofs.«154636_j42442866819598_1_alg».proof.Proof.Gen.KernelIdeal.Skeleton
import proofs.«154636_j42442866819598_1_alg».proof.Proof.Gen.KernelIdeal.Launch
import proofs.«154636_j42442866819598_1_alg».proof.Proof.Gen.KernelIdeal.Points
import proofs.«154636_j42442866819598_1_alg».proof.Proof.Gen.KernelIdeal.Frame
import proofs.«154636_j42442866819598_1_alg».proof.Proof.Gen.ReferenceIdeal
import proofs.«154636_j42442866819598_1_alg».proof.Proof.Gen.Pre_finite_inputs
import proofs.«154636_j42442866819598_1_alg».proof.Proof.KernelRun
import proofs.«154636_j42442866819598_1_alg».proof.Proof.RefRun
import proofs.«154636_j42442866819598_1_alg».proof.Proof.RefRead
import proofs.«154636_j42442866819598_1_alg».proof.Proof.Bridge
import proofs.«154636_j42442866819598_1_alg».proof.Proof.PreDecode
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Hand.run (F := Ideal) m ρ)

/-- Nothing was rewritten between the kernel and its idealization. -/
theorem preserves : Cert.preserves_Kernel_KernelIdeal := trivial

/-- From memories agreeing on the arguments, with x finite and the accumulators positive reals, the two programs
    end with equal results: under the shared last transpose, the kernel's scopes-first array (flatten, region,
    split) is the reference's, entry by entry, by the row-level law. -/
theorem algebraic : Cert.algebraic_KernelIdeal_ReferenceIdeal := by
  intro m ρ m' ρ' hpre hagree
  refine ⟨fun c => transpose Cert.KernelIdeal.S32x32x32x256 [2, 0, 1, 3]
      (Cert.KernelIdeal.Hand.kernelArr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Gen.transposes_S32x32x32x256_S32x32x32x256_2_0_1_3,
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  refine congrArg (fun z => transpose Cert.KernelIdeal.S32x32x32x256 [2, 0, 1, 3] z
    Cert.KernelIdeal.Gen.transposes_S32x32x32x256_S32x32x32x256_2_0_1_3) ?_
  have hx : ∀ i, ∃ r : ℝ, (transpose Cert.KernelIdeal.S32x32x32x256 [1, 2, 0, 3]
      (m ((c.tc : Thread Cert.KernelIdeal.nD Cert.KernelIdeal.τ).loc Cert.KernelIdeal.main_arg0))
      Cert.KernelIdeal.Gen.transposes_S32x32x32x256_S32x32x32x256_1_2_0_3) i = (r : EReal) := fun i => by
    unfold transpose
    exact Cert.PreDecode.x_real _ _ (hpre c) _
  have ha : ∀ i, ∃ r : ℝ, 0 < r
      ∧ m ((c.tc : Thread Cert.KernelIdeal.nD Cert.KernelIdeal.τ).loc Cert.KernelIdeal.main_arg1) i = (r : EReal) :=
    fun i => Cert.PreDecode.acc_pos _ _ (hpre c) i
  exact (Cert.ArraySpec.reshape_regionOut_eq _ _ _ _ _ hx ha _
    (fun v h b s => Cert.ReferenceIdeal.Hand.refArr_apply _ _ v h b s)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
